-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S64x64 : Shape := ⟨2, ![64, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : FVec F S100000x1 .f32) (main_arg2 : FVec F S64x64 .f32) (main_arg3 : FVec F S64x64 .f32) (main_arg4 : IVec S1000000 32) (main_arg5 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S100000x1 : Shape := ⟨2, ![100000, 1]⟩
abbrev S64x64 : Shape := ⟨2, ![64, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S4000x64 : Shape := ⟨2, ![4000, 64]⟩
abbrev S4000x1 : Shape := ⟨2, ![4000, 1]⟩
abbrev S100000 : Shape := ⟨1, ![100000]⟩
abbrev S4000 : Shape := ⟨1, ![4000]⟩

abbrev nBuf : Space → Nat
  | .hbm => 48
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S64x64, .f32⟩
  | .hbm, ⟨3, _⟩ => ⟨S64x64, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x1, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x1, .f32⟩
  | .hbm, ⟨33, _⟩ => ⟨S1000000x64, .f32⟩
  | .hbm, ⟨34, _⟩ => ⟨S1000000x1, .f32⟩
  | .hbm, ⟨35, _⟩ => ⟨S_, .f32⟩
  | .hbm, ⟨36, _⟩ => ⟨S100000x64, .f32⟩
  | .hbm, ⟨37, _⟩ => ⟨S1000000x1, .i32⟩
  | .hbm, ⟨38, _⟩ => ⟨S100000x64, .f32⟩
  | .hbm, ⟨39, _⟩ => ⟨S1000000, .f32⟩
  | .hbm, ⟨40, _⟩ => ⟨S_, .f32⟩
  | .hbm, ⟨41, _⟩ => ⟨S100000, .f32⟩
  | .hbm, ⟨42, _⟩ => ⟨S1000000x1, .i32⟩
  | .hbm, ⟨43, _⟩ => ⟨S100000, .f32⟩
  | .hbm, ⟨44, _⟩ => ⟨S100000x1, .f32⟩
  | .hbm, ⟨45, _⟩ => ⟨S64x64, .f32⟩
  | .hbm, ⟨46, _⟩ => ⟨S64x64, .f32⟩
  | .hbm, ⟨47, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S4000x64, .f32⟩
  | .local _ .vmem, ⟨11, _⟩ => ⟨S4000x64, .f32⟩
  | .local _ .vmem, ⟨12, _⟩ => ⟨S4000x1, .f32⟩
  | .local _ .vmem, ⟨13, _⟩ => ⟨S4000x1, .f32⟩
  | .local _ .vmem, ⟨14, _⟩ => ⟨S4000x64, .f32⟩
  | .local _ .vmem, ⟨15, _⟩ => ⟨S4000x64, .f32⟩
  | .local _ .vmem, ⟨16, _⟩ => ⟨S64x64, .f32⟩
  | .local _ .vmem, ⟨17, _⟩ => ⟨S64x64, .f32⟩
  | .local _ .vmem, ⟨18, _⟩ => ⟨S4000x64, .f32⟩
  | .local _ .vmem, ⟨19, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S1000000x1_S1000000 : S1000000x1.ShapeCasts S1000000
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  reduces_S4000x64_S4000 : S4000x64.Reduces [1] S4000
  shapeCasts_S4000_S4000x1 : S4000.ShapeCasts S4000x1
  gather_S100000x64_S1000000x1_S1000000x64_1_0_n_n_0_1_164_wf : GatherDims.WF S100000x64 S1000000x1 S1000000x64 [1] [0] [] [0] [] 1 ![1, 64]
  gather_S100000x1_S1000000x1_S1000000x1_1_0_n_n_0_1_11_wf : GatherDims.WF S100000x1 S1000000x1 S1000000x1 [1] [0] [] [0] [] 1 ![1, 1]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .f32 = 32 ∨ (Rect.block (s := S1000000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1000000x1.size a
  hwx0_2 : ∀ i : grid0.Coords, EltTy.bits .f32 = 32 ∨ (Rect.block (s := S1000000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S1000000x64.size a
  hwx0_3 : ∀ i : grid0.Coords, EltTy.bits .f32 = 32 ∨ (Rect.block (s := S1000000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S1000000x1.size a
  hwx0_4 : ∀ i : grid0.Coords, EltTy.bits .f32 = 32 ∨ (Rect.block (s := S1000000x1) S4000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S4000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S4000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S64x64 : Shape := ⟨2, ![64, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S64x64, .f32⟩
  | .hbm, ⟨3, _⟩ => ⟨S64x64, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x1, .f32⟩
  | .hbm, ⟨15, _⟩ => ⟨S1000000x1, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x1, .f32⟩
  | .hbm, ⟨25, _⟩ => ⟨S1000000x1, .f32⟩
  | .hbm, ⟨26, _⟩ => ⟨S1000000x1, .f32⟩
  | .hbm, ⟨27, _⟩ => ⟨S_, .f32⟩
  | .hbm, ⟨28, _⟩ => ⟨S1000000x1, .f32⟩
  | .hbm, ⟨29, _⟩ => ⟨S1000000x1, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S100000x64, .f32⟩
  | .hbm, ⟨55, _⟩ => ⟨S1000000x1, .i32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S64x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S100000x64, .f32⟩
  | .hbm, ⟨66, _⟩ => ⟨S64x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .i1⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000, .f32⟩
  | .hbm, ⟨79, _⟩ => ⟨S100000x1, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  transposes_S64x64_S64x64_1_0 : S64x64.Transposes [1, 0] S64x64
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x1_S1000000x1_S1000000x1_1_0_n_n_0_1_11_wf : GatherDims.WF S100000x1 S1000000x1 S1000000x1 [1] [0] [] [0] [] 1 ![1, 1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result array NAMED.

  The program is four segments: a stretch of host operations, the edge-weight pallas_call, a second stretch of host
  operations, the dense-finish pallas_call. The launch theorem over these segments leaves every unscoped buffer of
  the final state at the last boundary's contents `W4`; read at the result buffer this names the result, and read
  at each argument buffer it gives the argument back unchanged.
-/
import proofs.«177534_j81398220194344_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the six arguments end as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The last boundary's contents at the result buffer: what the second pallas_call's write-backs assemble to. -/
theorem W4_result (c : Dev nD) :
    W4 m ρ c (Proc.devRef .tc main_v32) = (dat1 (V3 m ρ) c).arrAt 5 cfg1.N :=
  W4_arr m ρ c 5

end Cert.KernelIdeal.RunValue

end
-- ==== Proof.LibSimSum.lean ====
/-
  "Equal, or both infinite": a relation on the extended reals under which a real factor distributes over a finite sum.

  On the extended reals  x · (a + b) = x · a + x · b  can fail only when the sum mixes the two infinities
  (⊤ + ⊥ = ⊥, so a negative x gives ⊤ on the left and ⊥ on the right). In that case both sides are infinite. The
  relation `Sim u v` — u = v, or u and v are both infinite, possibly of opposite signs — therefore always relates the
  two bracketings of a real factor and a finite sum (`sim_mul_sum`; over the terms selected by a predicate:
  `sim_mul_sum_if`, `sim_mul_sum_if_mul`), and it is kept by a product with a common factor, by sums of two and by
  finite sums (`Sim.mul_right`, `Sim.add`, `Sim.sum`). An infinite value has an infinite square (`IsInf.mul_self`) and
  every square is non-negative (`mul_self_nonneg'`), which is what makes a vector with an infinite entry infinitely long.
-/
import Idealize.ShloMosaic.PureOps.Ideal

noncomputable section
open scoped BigOperators
namespace Cert.LibSim

/-- One of the two infinities. -/
def IsInf (u : EReal) : Prop := u = ⊤ ∨ u = ⊥

/-- Two extended reals that are equal, or else both infinite (possibly of opposite signs). -/
def Sim (u v : EReal) : Prop := u = v ∨ (IsInf u ∧ IsInf v)

/-! ### Infinite values under sums and products -/

/-- A sum whose first term is infinite is infinite: `⊤ + y` is `⊤` or `⊥`, and `⊥ + y = ⊥`. -/
theorem IsInf.add_left {u : EReal} (h : IsInf u) (v : EReal) : IsInf (u + v) := by
  rcases h with rfl | rfl
  · by_cases hv : v = ⊥
    · subst hv; right; rfl
    · left; exact EReal.top_add_of_ne_bot hv
  · right; exact EReal.bot_add v

theorem IsInf.add_right {v : EReal} (h : IsInf v) (u : EReal) : IsInf (u + v) := by
  rw [add_comm]; exact h.add_left u

/-- An infinite value times a non-zero one is infinite. -/
theorem IsInf.mul_right {u : EReal} (h : IsInf u) {w : EReal} (hw : w ≠ 0) : IsInf (u * w) := by
  rcases lt_or_gt_of_ne hw with hneg | hpos
  · rcases h with rfl | rfl
    · right; exact EReal.top_mul_of_neg hneg
    · left; exact EReal.bot_mul_of_neg hneg
  · rcases h with rfl | rfl
    · left; exact EReal.top_mul_of_pos hpos
    · right; exact EReal.bot_mul_of_pos hpos

theorem IsInf.mul_left {u : EReal} (h : IsInf u) {w : EReal} (hw : w ≠ 0) : IsInf (w * u) := by
  rw [mul_comm]; exact h.mul_right hw

/-- A finite sum with an infinite term is infinite. -/
theorem isInf_sum {ι : Type*} (s : Finset ι) (b : ι → EReal) (h : ∃ i ∈ s, IsInf (b i)) :
    IsInf (∑ i ∈ s, b i) := by
  classical
  induction s using Finset.induction_on with
  | empty => obtain ⟨i, hi, _⟩ := h; simp at hi
  | insert a s ha ih =>
    rw [Finset.sum_insert ha]
    obtain ⟨i, hi, hinf⟩ := h
    rcases Finset.mem_insert.mp hi with rfl | his
    · exact hinf.add_left _
    · exact (ih ⟨i, his, hinf⟩).add_right _

/-- A finite sum of values none of which is infinite is the sum of their real parts. -/
theorem sum_eq_coe {ι : Type*} (s : Finset ι) (b : ι → EReal) (h : ∀ i ∈ s, ¬ IsInf (b i)) :
    ∑ i ∈ s, b i = ((∑ i ∈ s, (b i).toReal : ℝ) : EReal) := by
  classical
  induction s using Finset.induction_on with
  | empty => simp
  | insert a s ha ih =>
    rw [Finset.sum_insert ha, Finset.sum_insert ha, EReal.coe_add,
      ← ih (fun i hi => h i (Finset.mem_insert_of_mem hi)),
      EReal.coe_toReal (fun e => h a (Finset.mem_insert_self a s) (Or.inl e))
        (fun e => h a (Finset.mem_insert_self a s) (Or.inr e))]

theorem Sim.refl (u : EReal) : Sim u u := Or.inl rfl

/-- A real factor distributes over a finite sum up to `Sim`: exactly when every term is real (or the factor is
    zero), and with both sides infinite when some term is. -/
theorem sim_mul_sum {ι : Type*} (x : ℝ) (s : Finset ι) (b : ι → EReal) :
    Sim ((x : EReal) * ∑ i ∈ s, b i) (∑ i ∈ s, (x : EReal) * b i) := by
  by_cases hx : x = 0
  · subst hx; left; simp
  have hx' : (x : EReal) ≠ 0 := by exact_mod_cast hx
  by_cases h : ∃ i ∈ s, IsInf (b i)
  · right
    refine ⟨(isInf_sum s b h).mul_left hx', isInf_sum s _ ?_⟩
    obtain ⟨i, hi, hinf⟩ := h
    exact ⟨i, hi, hinf.mul_left hx'⟩
  · left
    replace h : ∀ i ∈ s, ¬ IsInf (b i) := fun i hi hinf => h ⟨i, hi, hinf⟩
    have hb : ∀ i ∈ s, b i = ((b i).toReal : EReal) := fun i hi =>
      (EReal.coe_toReal (fun e => h i hi (Or.inl e)) (fun e => h i hi (Or.inr e))).symm
    rw [sum_eq_coe s b h, ← EReal.coe_mul, Finset.mul_sum]
    have : ∀ i ∈ s, (x : EReal) * b i = ((x * (b i).toReal : ℝ) : EReal) := fun i hi => by
      rw [EReal.coe_mul, ← hb i hi]
    rw [Finset.sum_congr rfl this]
    symm
    have h' : ∀ i ∈ s, ¬ IsInf (((x * (b i).toReal : ℝ) : EReal)) := fun i _ hh => by
      rcases hh with e | e
      · exact EReal.coe_ne_top _ e
      · exact EReal.coe_ne_bot _ e
    rw [sum_eq_coe s _ h']
    simp only [EReal.toReal_coe]

/-- The same over the terms a predicate selects (the others count as zero). -/
theorem sim_mul_sum_if {M : Nat} (x : ℝ) (L : Fin M → Prop) [DecidablePred L] (a : Fin M → EReal) :
    Sim ((x : EReal) * ∑ e : Fin M, (if L e then a e else 0)) (∑ e : Fin M, (if L e then (x : EReal) * a e else 0)) := by
  have h : ∀ e : Fin M, (if L e then (x : EReal) * a e else 0) = (x : EReal) * (if L e then a e else 0) := by
    intro e; split_ifs <;> simp
  simp only [h]
  exact sim_mul_sum x Finset.univ _

/-- The same for terms that are products `s e · a e`, the factor multiplied onto the first factor inside the sum. -/
theorem sim_mul_sum_if_mul {M : Nat} (x : ℝ) (L : Fin M → Prop) [DecidablePred L] (s a : Fin M → EReal) :
    Sim ((x : EReal) * ∑ e : Fin M, (if L e then s e * a e else 0))
      (∑ e : Fin M, (if L e then ((x : EReal) * s e) * a e else 0)) := by
  have h : ∀ e : Fin M, (if L e then ((x : EReal) * s e) * a e else 0)
      = (x : EReal) * (if L e then s e * a e else 0) := by
    intro e; split_ifs <;> simp [mul_assoc]
  simp only [h]
  exact sim_mul_sum x Finset.univ _

/-! ### `Sim` under products and sums -/

theorem Sim.mul_right {u v : EReal} (h : Sim u v) (w : EReal) : Sim (u * w) (v * w) := by
  rcases h with rfl | ⟨hu, hv⟩
  · exact Sim.refl _
  · by_cases hw : w = 0
    · subst hw; left; simp
    · exact Or.inr ⟨hu.mul_right hw, hv.mul_right hw⟩

theorem Sim.add {a b c d : EReal} (h1 : Sim a b) (h2 : Sim c d) : Sim (a + c) (b + d) := by
  rcases h1 with rfl | ⟨ha, hb⟩
  · rcases h2 with rfl | ⟨hc, hd⟩
    · exact Sim.refl _
    · exact Or.inr ⟨hc.add_right _, hd.add_right _⟩
  · exact Or.inr ⟨ha.add_left _, hb.add_left _⟩

/-- Sums related term by term are related: all terms equal, or some term infinite on both sides. -/
theorem Sim.sum {ι : Type*} (s : Finset ι) (a b : ι → EReal) (h : ∀ i ∈ s, Sim (a i) (b i)) :
    Sim (∑ i ∈ s, a i) (∑ i ∈ s, b i) := by
  by_cases hex : ∃ i ∈ s, a i ≠ b i
  · obtain ⟨i, hi, hne⟩ := hex
    rcases h i hi with e | ⟨ha, hb⟩
    · exact absurd e hne
    · exact Or.inr ⟨isInf_sum s a ⟨i, hi, ha⟩, isInf_sum s b ⟨i, hi, hb⟩⟩
  · exact Or.inl (Finset.sum_congr rfl fun i hi => by_contra fun hne => hex ⟨i, hi, hne⟩)

/-! ### Squares -/

theorem mul_self_nonneg' (u : EReal) : 0 ≤ u * u := by
  induction u using EReal.rec with
  | bot => simp
  | top => simp
  | coe r => rw [← EReal.coe_mul]; exact_mod_cast mul_self_nonneg r

theorem IsInf.mul_self {u : EReal} (h : IsInf u) : u * u = ⊤ := by
  rcases h with rfl | rfl <;> simp

end Cert.LibSim
end
-- ==== Proof.Spec.lean ====
/-
  What the layer computes, entry by entry, on the extended reals.

  A node's result row is a function of three rows of 64 numbers: the node's own features `f`, and the two
  aggregated messages `r1`, `r2`. The row is
      pre j  = (Σ_k r1 k · wg k j + Σ_k r2 k · wi k j) + Σ_k f k · wg k j
      act j  = pre j where 0 ≤ pre j, else c · pre j                      (the leaky rectifier of slope c)
      out j  = act j / max (√(Σ_j' act j' · act j')) ε                    (the row scaled to unit length)
  The two programs differ only in how the aggregated messages are bracketed (the node's own feature taken out
  of the sum over incoming edges, or left inside it), which on the extended reals is the same number except
  when both bracketings are infinite: the relation `Cert.LibSim.Sim`.
-/
import Idealize.ShloMosaic.PureOps.Ideal
import Idealize.ShloMosaic.Lib.ValueIdx
import proofs.«177534_j81398220194344_1_alg».proof.Proof.LibSimSum

noncomputable section
open scoped BigOperators
namespace Cert.Spec

open Idealize.ShloMosaic Idealize.ShloMosaic.ValueIdx

/-- The leaky rectifier of slope `c`: the value itself where it is non-negative, `c` times it elsewhere. -/
def leaky (c u : EReal) : EReal := Scalar.select (Ideal.cmp .oge u 0) u (c * u)

/-- Entry `j` of a node's row before the activation. -/
def rowPre (f r1 r2 : Fin 64 → EReal) (wg wi : Fin 64 → Fin 64 → EReal) (j : Fin 64) : EReal :=
  ((∑ k : Fin 64, r1 k * wg k j) + (∑ k : Fin 64, r2 k * wi k j)) + (∑ k : Fin 64, f k * wg k j)

/-- Entry `j` of a node's row after the activation. -/
def rowAct (c : EReal) (f r1 r2 : Fin 64 → EReal) (wg wi : Fin 64 → Fin 64 → EReal) (j : Fin 64) : EReal :=
  leaky c (rowPre f r1 r2 wg wi j)

/-- Entry `j` of a node's result row: the activated row divided by its Euclidean length, the length kept at
    least `ε`. -/
def rowOut (c ε : EReal) (f r1 r2 : Fin 64 → EReal) (wg wi : Fin 64 → Fin 64 → EReal) (j : Fin 64) : EReal :=
  Ideal.div (rowAct c f r1 r2 wg wi j)
    (max (Ideal.sqrt (∑ j' : Fin 64, rowAct c f r1 r2 wg wi j' * rowAct c f r1 r2 wg wi j')) ε)

/-- The slope of the rectifier and the floor of the length, as the words both programs carry. -/
abbrev slope : EReal := Ideal.ofBits .f32 0x3E4CCCCD#32
abbrev floor : EReal := Ideal.ofBits .f32 0x2B8CBCCC#32

/-- The dense finish of a whole node-by-feature array `feat` [n, 64] with a column `s1` [n, 1] of summed edge
    weights and an array `g` [n, 64] of summed weighted neighbour features, read at (p, j): the messages are the
    node's own feature times `s1`, and times `g`. -/
def finishAt {n : Nat} (feat : (⟨2, ![n, 64]⟩ : Shape).Idx → EReal) (s1 : (⟨2, ![n, 1]⟩ : Shape).Idx → EReal)
    (g : (⟨2, ![n, 64]⟩ : Shape).Idx → EReal) (wg wi : (⟨2, ![64, 64]⟩ : Shape).Idx → EReal)
    (p : Fin n) (j : Fin 64) : EReal :=
  rowOut slope floor (fun k => feat (ix2 p k)) (fun k => feat (ix2 p k) * s1 (ix2 p (0 : Fin 1)))
    (fun k => feat (ix2 p k) * g (ix2 p k)) (fun k j => wg (ix2 k j)) (fun k j => wi (ix2 k j)) j

/-- The weight of an edge from its two end degrees: 1 / (√d₁ · √d₂), as a column over the edges. -/
def edgeWeight {e : Nat} (d1 d2 : (⟨2, ![e, 1]⟩ : Shape).Idx → EReal) : (⟨2, ![e, 1]⟩ : Shape).Idx → EReal :=
  fun i => Ideal.div (Ideal.ofBits .f32 0x3F800000#32) (Ideal.sqrt (d1 i) * Ideal.sqrt (d2 i))

/-- An edge-by-feature array scaled row by row by a column of weights. -/
def scaleRows {e : Nat} (a : (⟨2, ![e, 64]⟩ : Shape).Idx → EReal) (w : (⟨2, ![e, 1]⟩ : Shape).Idx → EReal) :
    (⟨2, ![e, 64]⟩ : Shape).Idx → EReal :=
  fun i => a i * w (ix2 (i 0) (0 : Fin 1))

end Cert.Spec
end
-- ==== Proof.HostK.lean ====
/-
  What the two pallas_calls of the kernel program find in their input arrays, as terms of the six arguments.

  Before the first call the host gathers, for every edge, the source node's feature row and the two end nodes'
  degrees (negative index words wrapped by the node count first). Between the calls it sums the first call's two
  output arrays into the destination nodes (an accumulating scatter by the raw destination word) and transposes the
  two weight matrices. Each buffer a call reads is one of these terms.
-/
import proofs.«177534_j81398220194344_1_alg».proof.Proof.Gen.KernelIdeal.Frame
import proofs.«177534_j81398220194344_1_alg».proof.Proof.Spec
import Idealize.ShloMosaic.Lib.StableHlo.Run

set_option maxRecDepth 16384
noncomputable section
namespace Cert.KernelIdeal.HostValue

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- A vector of index words as a column, negative words wrapped by the node count first. -/
def wrapCol (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- A vector of index words as a column, as they are. -/
def rawCol (x : IVec S1000000 32) : IVec S1000000x1 32 :=
  broadcastInDim S1000000x1 ![0] bcast_S1000000_S1000000x1_0 x

/-- The source nodes' feature rows, edge by edge. -/
def srcRows (feat : FVec Ideal S100000x64 .f32) (src : IVec S1000000 32) : FVec Ideal S1000000x64 .f32 :=
  Host.gather gather_S100000x64_S1000000x1_S1000000x64_1_0_n_n_0_1_164 feat (wrapCol src)

/-- A node-indexed degree column read at the edges' end nodes. -/
def endDeg (deg : FVec Ideal S100000x1 .f32) (ends : IVec S1000000 32) : FVec Ideal S1000000x1 .f32 :=
  Host.gather gather_S100000x1_S1000000x1_S1000000x1_1_0_n_n_0_1_11 deg (wrapCol ends)

theorem V1_v6 (c : Dev nD) :
    V1 m ρ c main_v6 = srcRows (m ((c : Thread nD τ).loc main_arg0)) (m ((c : Thread nD τ).loc main_arg4)) := by
  show StableHlo.after hostOps0 (W0 m ρ c) (Proc.devRef .tc main_v6) = _
  after_results_simp
  rfl

theorem V1_v13 (c : Dev nD) :
    V1 m ρ c main_v13 = endDeg (m ((c : Thread nD τ).loc main_arg1)) (m ((c : Thread nD τ).loc main_arg4)) := by
  show StableHlo.after hostOps0 (W0 m ρ c) (Proc.devRef .tc main_v13) = _
  after_results_simp
  rfl

theorem V1_v20 (c : Dev nD) :
    V1 m ρ c main_v20 = endDeg (m ((c : Thread nD τ).loc main_arg1)) (m ((c : Thread nD τ).loc main_arg5)) := by
  show StableHlo.after hostOps0 (W0 m ρ c) (Proc.devRef .tc main_v20) = _
  after_results_simp
  rfl

/-! ## Between the two calls -/

/-- Rows of an edge-by-feature array summed into the nodes their destination words name. -/
def sumRows (dst : IVec S1000000 32) (upd : FVec Ideal S1000000x64 .f32) : FVec Ideal S100000x64 .f32 :=
  Host.scatterAdd scatter_S100000x64_S1000000x1_S1000000x64_1_0_0_1
    (broadcastInDim S100000x64 ![] bcast_S_S100000x64 (constant S_ .f32 0x00000000#32)) (rawCol dst) upd

/-- A column of edge weights summed into the nodes their destination words name, as a column over the nodes. -/
def sumCol (dst : IVec S1000000 32) (w : FVec Ideal S1000000x1 .f32) : FVec Ideal S100000x1 .f32 :=
  broadcastInDim S100000x1 ![0] bcast_S100000_S100000x1_0
    (Host.scatterAdd scatter_S100000_S1000000x1_S1000000_n_0_0_1
      (broadcastInDim S100000 ![] bcast_S_S100000 (constant S_ .f32 0x00000000#32)) (rawCol dst)
      (fun i => shapeCast S1000000 w shapeCasts_S1000000x1_S1000000 i))

/-- A weight matrix transposed. -/
def transposed (w : FVec Ideal S64x64 .f32) : FVec Ideal S64x64 .f32 :=
  transpose S64x64 [1, 0] w transposes_S64x64_S64x64_1_0

/-- An argument buffer at the first call's exit is as launched: no host operation and no window writes one. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results_simp <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_v30 (c : Dev nD) : V3 m ρ c main_v30 = transposed (m ((c : Thread nD τ).loc main_arg2)) := by
  show StableHlo.after hostOps1 (W2 m ρ c) (Proc.devRef .tc main_v30) = _
  after_results
  rw [W2_arg2]; rfl

theorem V3_v31 (c : Dev nD) : V3 m ρ c main_v31 = transposed (m ((c : Thread nD τ).loc main_arg3)) := by
  show StableHlo.after hostOps1 (W2 m ρ c) (Proc.devRef .tc main_v31) = _
  after_results
  rw [W2_arg3]; rfl

theorem V3_v24 (c : Dev nD) :
    V3 m ρ c main_v24 = sumRows (m ((c : Thread nD τ).loc main_arg5)) (W2 m ρ c (Proc.devRef .tc main_v21_0)) := by
  show StableHlo.after hostOps1 (W2 m ρ c) (Proc.devRef .tc main_v24) = _
  after_results
  rw [W2_arg5]; rfl

theorem V3_v29 (c : Dev nD) :
    V3 m ρ c main_v29 = sumCol (m ((c : Thread nD τ).loc main_arg5)) (W2 m ρ c (Proc.devRef .tc main_v21_1)) := by
  show StableHlo.after hostOps1 (W2 m ρ c) (Proc.devRef .tc main_v29) = _
  after_results
  rw [W2_arg5]; rfl

end Cert.KernelIdeal.HostValue
end
-- ==== Proof.Region0.lean ====
/-
  The first pallas_call's two output arrays as whole-array functions of its three input arrays.

  Each grid point t handles rows 4000·t … 4000·t + 3999 of the edge axis; its body is pointwise in the row, so the
  array the blocks assemble to is the same pointwise function of the whole input arrays: the column of edge weights
  1 / (√d₁ · √d₂), and the gathered source features scaled row by row by that column.
-/
import proofs.«177534_j81398220194344_1_alg».proof.Proof.Gen.KernelIdeal.Frame
import proofs.«177534_j81398220194344_1_alg».proof.Proof.Spec
import Idealize.ShloMosaic.Lib.Pipeline.Value
import Idealize.ShloMosaic.Lib.ValueIdx
import Idealize.ShloMosaic.Lib.ValueLayout

set_option maxRecDepth 16384
noncomputable section
namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offset of a store that fills its buffer. -/
theorem hz : (![0, 0] : Fin 2 → Nat) = fun _ => 0 := funext fun a => by fin_cases a <;> rfl

/-- The body's weight column at row p. -/
theorem weight_at (x1 x2 : Vec Ideal S4000x1 .f32) (p : Fin 4000) (q : Fin 1) :
    k0_pay1 (F := Ideal) x1 x2 (ix2 p q)
      = Ideal.div (Ideal.ofBits .f32 0x3F800000#32) (Ideal.sqrt (x1 (ix2 p q)) * Ideal.sqrt (x2 (ix2 p q))) := by
  unfold k0_pay1
  simp only [shapeCast_self]
  rfl

/-- The body's scaled features at row p, lane q: the loaded feature times the weight of row p. -/
theorem scaled_at (x0 : Vec Ideal S4000x64 .f32) (x1 x2 : Vec Ideal S4000x1 .f32) (p : Fin 4000) (q : Fin 64) :
    k0_pay2 (F := Ideal) x0 x1 x2 (ix2 p q)
      = x0 (ix2 p q) * k0_pay1 (F := Ideal) x1 x2 (ix2 p (0 : Fin 1)) := by
  unfold k0_pay2
  simp only [shapeCast_self]
  refine congrArg (fun z => x0 (ix2 p q) * z) ?_
  refine broadcastTo_apply _ _ _ _ (fun a => ?_)
  match a with
  | ⟨0, _⟩ => rfl
  | ⟨1, _⟩ => rfl

/-- Every window's block index at grid point t is (t, 0): block t along the edge axis, the one block along the other. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A block's weight entry from the whole columns: where the two loaded blocks are rows of the columns. -/
theorem weight_blk (x1 x2 : Vec Ideal S4000x1 .f32) (d1 d2 : S1000000x1.Idx → EReal) (j : S4000x1.Idx) (i : S1000000x1.Idx)
    (h1 : x1 j = d1 i) (h2 : x2 j = d2 i) :
    k0_pay1 (F := Ideal) x1 x2 j = Cert.Spec.edgeWeight d1 d2 i := by
  obtain ⟨p, q, rfl⟩ : ∃ (p : Fin 4000) (q : Fin 1), j = ix2 p q := ⟨j 0, j 1, eq_ix2 j⟩
  rw [weight_at, h1, h2]
  rfl

/-- What point t writes back of the weight column is rows 4000·t … 4000·t + 3999 of the whole column of weights. -/
theorem flushed4_eq (c : Dev nD) (t : Fin cfg0.N) :
    (dat0 (F := Ideal) V c).flushed 4 t
      = ((cfg0.win 4).blk t).view.read (Elt Ideal) (Cert.Spec.edgeWeight (V c main_v13) (V c main_v20)) := by
  show (cfg0.win 4).cut (grid0.coords t) ((dat0 (F := Ideal) V c).after 4 t) = _
  rw [after0_4]
  unfold out0_4
  rw [View.canon_unit_zero hz]
  simp only [View.ld_unit_zero (S := S4000x1) hz]
  obtain ⟨-, -, e10, e11, e20, e21, -, -, e40, e41⟩ := idx_facts t
  funext j
  show k0_pay1 (F := Ideal) (iblk0 V c 1 t) (iblk0 V c 2 t) j
    = Cert.Spec.edgeWeight (V c main_v13) (V c main_v20) (((cfg0.win 4).blk t).view.emb j)
  refine weight_blk (iblk0 V c 1 t) (iblk0 V c 2 t) (V c main_v13) (V c main_v20) j _ ?_ ?_
  · show V c main_v13 (((cfg0.win 1).blk t).view.emb j) = V c main_v13 (((cfg0.win 4).blk t).view.emb j)
    refine congrArg _ (funext fun a => Fin.ext ?_)
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 1 + 1 * (j 1).val = win0_4.index t (1 : Fin 2) * 1 + 1 * (j 1).val; omega
  · show V c main_v20 (((cfg0.win 2).blk t).view.emb j) = V c main_v20 (((cfg0.win 4).blk t).view.emb j)
    refine congrArg _ (funext fun a => Fin.ext ?_)
    match a with
    | ⟨0, _⟩ => show win0_2.index t (0 : Fin 2) * 4000 + 1 * (j 0).val = win0_4.index t (0 : Fin 2) * 4000 + 1 * (j 0).val; omega
    | ⟨1, _⟩ => show win0_2.index t (1 : Fin 2) * 1 + 1 * (j 1).val = win0_4.index t (1 : Fin 2) * 1 + 1 * (j 1).val; omega

/-- A row of the column is in point t's block iff each coordinate is in the block's range on its axis. -/
theorem mem_blk4 (t : Fin cfg0.N) (i : S1000000x1.Idx) :
    i ∈ ((cfg0.win 4).blk t).view.set ↔ ∀ a : Fin 2, win0_4.index t a * S4000x1.size a ≤ (i a).val ∧ (i a).val < win0_4.index t a * S4000x1.size a + S4000x1.size a := by
  show i ∈ ((View.whole main_v21_1).slice (win0_4.rect t)).set ↔ _
  rw [View.set_slice_whole, Rect.mem_set_unit]
  exact Iff.rfl

/-- The 250 blocks of 4000 rows cover the column: row r is in the block of point r / 4000. -/
theorem cover4 (i : S1000000x1.Idx) :
    ∃ t : Fin cfg0.N, (cfg0.win 4).flush t = true ∧ i ∈ ((cfg0.win 4).blk t).view.set := by
  have hi0 : (i 0).val < 1000000 := (i 0).isLt
  have hi1 : (i 1).val < 1 := (i 1).isLt
  have hN : cfg0.N = 250 := N_0
  have ht : (i 0).val / 4000 < cfg0.N := by rw [hN]; omega
  obtain ⟨-, -, -, -, -, -, -, -, e40, e41⟩ := idx_facts ⟨(i 0).val / 4000, ht⟩
  have e40' : win0_4.index ⟨(i 0).val / 4000, ht⟩ (0 : Fin 2) = (i 0).val / 4000 := e40
  refine ⟨⟨(i 0).val / 4000, ht⟩, flush0_4 _, ?_⟩
  rw [mem_blk4]
  intro a
  match a with
  | ⟨0, _⟩ => show win0_4.index ⟨(i 0).val / 4000, ht⟩ (0 : Fin 2) * 4000 ≤ (i 0).val ∧ (i 0).val < win0_4.index ⟨(i 0).val / 4000, ht⟩ (0 : Fin 2) * 4000 + 4000; omega
  | ⟨1, _⟩ => show win0_4.index ⟨(i 0).val / 4000, ht⟩ (1 : Fin 2) * 1 ≤ (i 1).val ∧ (i 1).val < win0_4.index ⟨(i 0).val / 4000, ht⟩ (1 : Fin 2) * 1 + 1; omega

/-- The weight column after the region: every block written back is that block of the whole column. -/
theorem weights_arr (c : Dev nD) :
    (dat0 (F := Ideal) V c).arrAt 4 cfg0.N = Cert.Spec.edgeWeight (V c main_v13) (V c main_v20) :=
  (dat0 (F := Ideal) V c).arrAt_eq_of_cover 4 (Cert.Spec.edgeWeight (V c main_v13) (V c main_v20))
    (fun t _ => flushed4_eq V c t) cover4

/-- A block's scaled entry from the whole arrays: where the three loaded blocks are rows of the arrays. -/
theorem scaled_blk (x0 : Vec Ideal S4000x64 .f32) (x1 x2 : Vec Ideal S4000x1 .f32)
    (a : S1000000x64.Idx → EReal) (d1 d2 : S1000000x1.Idx → EReal) (p : Fin 4000) (q : Fin 64) (i : S1000000x64.Idx)
    (h0 : x0 (ix2 p q) = a i)
    (h1 : x1 (ix2 p (0 : Fin 1)) = d1 (ix2 (i 0) (0 : Fin 1)))
    (h2 : x2 (ix2 p (0 : Fin 1)) = d2 (ix2 (i 0) (0 : Fin 1))) :
    k0_pay2 (F := Ideal) x0 x1 x2 (ix2 p q) = Cert.Spec.scaleRows a (Cert.Spec.edgeWeight d1 d2) i := by
  rw [scaled_at, weight_at, h0, h1, h2]
  rfl

/-- What point t writes back of the scaled features is rows 4000·t … 4000·t + 3999 of the whole scaled array. -/
theorem flushed3_eq (c : Dev nD) (t : Fin cfg0.N) :
    (dat0 (F := Ideal) V c).flushed 3 t
      = ((cfg0.win 3).blk t).view.read (Elt Ideal)
          (Cert.Spec.scaleRows (V c main_v6) (Cert.Spec.edgeWeight (V c main_v13) (V c main_v20))) := by
  show (cfg0.win 3).cut (grid0.coords t) ((dat0 (F := Ideal) V c).after 3 t) = _
  rw [after0_3]
  unfold out0_3
  rw [View.canon_unit_zero hz]
  simp only [View.ld_unit_zero (S := S4000x64) hz, View.ld_unit_zero (S := S4000x1) hz]
  obtain ⟨e00, e01, e10, e11, e20, e21, e30, e31, -, -⟩ := idx_facts t
  funext j
  obtain ⟨p, q, rfl⟩ : ∃ (p : Fin 4000) (q : Fin 64), j = ix2 p q := ⟨j 0, j 1, eq_ix2 j⟩
  show k0_pay2 (F := Ideal) (iblk0 V c 0 t) (iblk0 V c 1 t) (iblk0 V c 2 t) (ix2 p q)
    = Cert.Spec.scaleRows (V c main_v6) (Cert.Spec.edgeWeight (V c main_v13) (V c main_v20))
        (((cfg0.win 3).blk t).view.emb (ix2 p q))
  refine scaled_blk (iblk0 V c 0 t) (iblk0 V c 1 t) (iblk0 V c 2 t) (V c main_v6) (V c main_v13) (V c main_v20) p q _ ?_ ?_ ?_
  · show V c main_v6 (((cfg0.win 0).blk t).view.emb (ix2 p q)) = V c main_v6 (((cfg0.win 3).blk t).view.emb (ix2 p q))
    refine congrArg _ (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 64 + 1 * q.val = win0_3.index t (1 : Fin 2) * 64 + 1 * q.val; omega
  · show V c main_v13 (((cfg0.win 1).blk t).view.emb (ix2 p (0 : Fin 1)))
      = V c main_v13 (ix2 ((((cfg0.win 3).blk t).view.emb (ix2 p q)) 0) (0 : Fin 1))
    refine congrArg _ (funext fun a => Fin.ext ?_)
    match a with
    | ⟨0, _⟩ => show win0_1.index t (0 : Fin 2) * 4000 + 1 * p.val = win0_3.index t (0 : Fin 2) * 4000 + 1 * p.val; omega
    | ⟨1, _⟩ => show win0_1.index t (1 : Fin 2) * 1 + 1 * 0 = 0; omega
  · show V c main_v20 (((cfg0.win 2).blk t).view.emb (ix2 p (0 : Fin 1)))
      = V c main_v20 (ix2 ((((cfg0.win 3).blk t).view.emb (ix2 p q)) 0) (0 : Fin 1))
    refine congrArg _ (funext fun a => Fin.ext ?_)
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega

/-- A row of the feature array is in point t's block iff each coordinate is in the block's range on its axis. -/
theorem mem_blk3 (t : Fin cfg0.N) (i : S1000000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v21_0).slice (win0_3.rect t)).set ↔ _
  rw [View.set_slice_whole, Rect.mem_set_unit]
  exact Iff.rfl

/-- The 250 blocks of 4000 rows cover the feature array: row r is in the block of point r / 4000. -/
theorem cover3 (i : S1000000x64.Idx) :
    ∃ t : Fin cfg0.N, (cfg0.win 3).flush t = true ∧ i ∈ ((cfg0.win 3).blk t).view.set := by
  have hi0 : (i 0).val < 1000000 := (i 0).isLt
  have hi1 : (i 1).val < 64 := (i 1).isLt
  have hN : cfg0.N = 250 := N_0
  have ht : (i 0).val / 4000 < cfg0.N := by rw [hN]; omega
  obtain ⟨-, -, -, -, -, -, e30, e31, -, -⟩ := idx_facts ⟨(i 0).val / 4000, ht⟩
  have e30' : win0_3.index ⟨(i 0).val / 4000, ht⟩ (0 : Fin 2) = (i 0).val / 4000 := e30
  refine ⟨⟨(i 0).val / 4000, ht⟩, flush0_3 _, ?_⟩
  rw [mem_blk3]
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; omega
  | ⟨1, _⟩ => show win0_3.index ⟨(i 0).val / 4000, ht⟩ (1 : Fin 2) * 64 ≤ (i 1).val ∧ (i 1).val < win0_3.index ⟨(i 0).val / 4000, ht⟩ (1 : Fin 2) * 64 + 64; omega

/-- The scaled source features after the region. -/
theorem scaled_arr (c : Dev nD) :
    (dat0 (F := Ideal) V c).arrAt 3 cfg0.N
      = Cert.Spec.scaleRows (V c main_v6) (Cert.Spec.edgeWeight (V c main_v13) (V c main_v20)) :=
  (dat0 (F := Ideal) V c).arrAt_eq_of_cover 3
    (Cert.Spec.scaleRows (V c main_v6) (Cert.Spec.edgeWeight (V c main_v13) (V c main_v20)))
    (fun t _ => flushed3_eq V c t) cover3

end Cert.KernelIdeal.Region0
end
-- ==== Proof.Region1.lean ====
/-
  The second pallas_call's output array as a whole-array function of its five input arrays.

  Each grid point t handles rows 4000·t … 4000·t + 3999 of the node axis and the whole of both weight matrices; row p
  of its block depends on row p of the three node-indexed blocks only, so the array the blocks assemble to is, row by
  row, the dense finish `Cert.Spec.finishAt` of the whole input arrays.
-/
import proofs.«177534_j81398220194344_1_alg».proof.Proof.Gen.KernelIdeal.Frame
import proofs.«177534_j81398220194344_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
open scoped BigOperators
namespace Cert.KernelIdeal.Region1

open Idealize.ShloMosaic Idealize.ShloMosaic.TcCoe Idealize.ShloMosaic.ValueIdx Idealize.SL.Sem
open Cert.KernelIdeal Cert.KernelIdeal.Gen

/-! ## The layout operations of the body, read at a row and a column -/

/-- A column [4000,1] broadcast along the lanes: entry (p, j) is the column's entry (p, 0). -/
theorem col_bcast {α : Type} (v : S4000x1.Idx → α) (h : S4000x1.Broadcasts S4000x64) (p : Fin 4000) (j : Fin 64) :
    broadcastTo S4000x64 v h (ix2 p j) = v (ix2 p (0 : Fin 1)) := by
  refine broadcastTo_apply v h (ix2 p j) (ix2 p (0 : Fin 1)) fun ax => ?_
  match ax with
  | ⟨0, _⟩ => rfl
  | ⟨1, _⟩ => rfl

/-- A vector [4000] cast to a column [4000,1]: entry (p, 0) is the vector's entry p. -/
theorem cast_col {α : Type} (v : S4000.Idx → α) (h : S4000.ShapeCasts S4000x1) (p : Fin 4000) :
    shapeCast S4000x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The reduced row index p with lane k put back is (p, k). -/
theorem lift_row (h : S4000x64.Reduces [1] S4000) (p : Fin 4000) (k : Fin (S4000x64.size 1)) :
    h.lift (ix1 p) k = ix2 p (⟨k.val, k.isLt⟩ : Fin 64) := by
  funext c; apply Fin.ext
  fin_cases c <;> rfl

/-- The sum along the lanes, read at row p. -/
theorem lane_sum (src : FVec Ideal S4000x64 .f32) (h : S4000x64.Reduces [1] S4000) (hφ : FKind.Formats .f32)
    (hacc : (0x00000000#32 : BitVec 32) = FKind.add.neutral .f32 hφ) (p : Fin 4000) :
    multiReduction .add [1] S4000 src 0x00000000#32 h hφ hacc (ix1 p) = ∑ k : Fin 64, src (ix2 p k) := by
  refine (Ideal.multiReduction_add_single src _ h hφ hacc (ix1 p)).trans ?_
  exact Finset.sum_congr rfl fun k _ => congrArg src (lift_row h p k)

/-! ## The contraction of a block [4000,64] with a matrix [64,64] -/

theorem dot_lhs0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem dot_lhs1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem dot_rhs0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem dot_rhs1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A product into the zero splat, read at (p, j): the sum over k of the left block's (p, k) times the matrix's (k, j). -/
theorem matmul_at {φ₁ φ₂ : FTy} (a : FVec Ideal S4000x64 φ₁) (b : FVec Ideal S64x64 φ₂) (p : Fin 4000) (j : Fin 64) :
    matmul dot_S4000x64_S64x64_S4000x64_1_0_0_1_n_n none a b (constant (F := Ideal) S4000x64 .f32 0x00000000#32) (ix2 p j)
      = ∑ k : Fin 64, (a (ix2 p k) : EReal) * (b (ix2 k j) : EReal) := by
  refine (Ideal.matmul_constant_zero_apply dot_S4000x64_S64x64_S4000x64_1_0_0_1_n_n none a b (ix2 p j)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p j) ((contrEquiv1 dot_S4000x64_S64x64_S4000x64_1_0_0_1_n_n 64 rfl rfl).symm k) = ix2 p k := funext fun a => Fin.ext (by
    match a with
    | ⟨0, _⟩ => exact dot_lhs0 _ _
    | ⟨1, _⟩ => exact (dot_lhs1 _ _).trans hk)
  have er : dot_S4000x64_S64x64_S4000x64_1_0_0_1_n_n.rhsIdx (ix2 p j) ((contrEquiv1 dot_S4000x64_S64x64_S4000x64_1_0_0_1_n_n 64 rfl rfl).symm k) = ix2 k j := funext fun a => Fin.ext (by
    match a with
    | ⟨0, _⟩ => exact (dot_rhs0 _ _).trans hk
    | ⟨1, _⟩ => exact dot_rhs1 _ _)
  rw [el, er]

/-! ## The body's arithmetic, read at a row and a column -/

/-- The rectifier step of the body at an index: the leaky rectifier of the block's entry. -/
theorem act_at (P : FVec Ideal S4000x64 .f32) (i : S4000x64.Idx) :
    select (cmpf .oge P (broadcast S4000x64 (FloatOps.ofBits (F := Ideal) .f32 0x00000000#32))) P
        (mulf (broadcast S4000x64 (FloatOps.ofBits (F := Ideal) .f32 0x3E4CCCCD#32)) P) i
      = Cert.Spec.leaky Cert.Spec.slope (P i) := by
  show Scalar.select (Ideal.cmp .oge (P i) (Ideal.ofBits .f32 0x00000000#32)) (P i) (Ideal.ofBits .f32 0x3E4CCCCD#32 * P i) = _
  rw [Ideal.ofBits_zero_f32]
  rfl

/-- The three products and their sum at (p, j): the row's entry before the activation. -/
theorem pre_at (x0 : Vec Ideal S4000x64 .f32) (x1 : Vec Ideal S4000x1 .f32) (x2 : Vec Ideal S4000x64 .f32)
    (x3 x4 : Vec Ideal S64x64 .f32) (p : Fin 4000) (j : Fin 64) :
    addf (addf
          (matmul dot_S4000x64_S64x64_S4000x64_1_0_0_1_n_n none
            (truncf .bf16 (mulf x0 (broadcastTo S4000x64 (shapeCast S4000x1 x1 shapeCasts_S4000x1_S4000x1) broadcasts_S4000x1_S4000x64)) bitsLt_bf16_f32)
            (truncf .bf16 (shapeCast S64x64 x3 shapeCasts_S64x64_S64x64) bitsLt_bf16_f32)
            (constant (F := Ideal) S4000x64 .f32 0x00000000#32))
          (matmul dot_S4000x64_S64x64_S4000x64_1_0_0_1_n_n none
            (truncf .bf16 (mulf x0 (shapeCast S4000x64 x2 shapeCasts_S4000x64_S4000x64)) bitsLt_bf16_f32)
            (truncf .bf16 (shapeCast S64x64 x4 shapeCasts_S64x64_S64x64) bitsLt_bf16_f32)
            (constant (F := Ideal) S4000x64 .f32 0x00000000#32)))
        (matmul dot_S4000x64_S64x64_S4000x64_1_0_0_1_n_n none
          (truncf .bf16 x0 bitsLt_bf16_f32)
          (truncf .bf16 (shapeCast S64x64 x3 shapeCasts_S64x64_S64x64) bitsLt_bf16_f32)
          (constant (F := Ideal) S4000x64 .f32 0x00000000#32)) (ix2 p j)
      = Cert.Spec.rowPre (fun k => x0 (ix2 p k)) (fun k => x0 (ix2 p k) * x1 (ix2 p (0 : Fin 1)))
          (fun k => x0 (ix2 p k) * x2 (ix2 p k)) (fun k j => x3 (ix2 k j)) (fun k j => x4 (ix2 k j)) j := by
  rw [shapeCast_self x1, shapeCast_self x2, shapeCast_self x3, shapeCast_self x4]
  rw [addf_apply, addf_apply, matmul_at, matmul_at, matmul_at]
  unfold Cert.Spec.rowPre
  simp only [truncf_apply, mulf_apply, col_bcast]

/-- The tail of the body over any activated block `A` whose row p is `a`: the entry divided by the row's length, the
    length kept at least ε. -/
theorem finish_at (A : FVec Ideal S4000x64 .f32) (a : Fin 64 → EReal) (ε : Ideal .f32) (hr : S4000x64.Reduces [1] S4000)
    (hφ : FKind.Formats .f32) (hacc : (0x00000000#32 : BitVec 32) = FKind.add.neutral .f32 hφ)
    (hs : S4000.ShapeCasts S4000x1) (hb : S4000x1.Broadcasts S4000x64) (p : Fin 4000) (j : Fin 64)
    (hA : ∀ k : Fin 64, A (ix2 p k) = a k) :
    divf A (broadcastTo S4000x64
        (maximumf (sqrt (shapeCast S4000x1 (multiReduction .add [1] S4000 (mulf A A) 0x00000000#32 hr hφ hacc) hs))
          (broadcast S4000x1 ε)) hb) (ix2 p j)
      = Ideal.div (a j) (max (Ideal.sqrt (∑ k : Fin 64, a k * a k)) ε) := by
  refine (divf_apply A _ (ix2 p j)).trans ?_
  rw [hA j]
  refine congrArg (Ideal.div (a j)) ?_
  refine (col_bcast _ hb p j).trans ?_
  show max (Ideal.sqrt (shapeCast S4000x1 (multiReduction .add [1] S4000 (mulf A A) 0x00000000#32 hr hφ hacc) hs (ix2 p (0 : Fin 1)))) ε = _
  refine congrArg (fun u => max (Ideal.sqrt u) ε) ?_
  refine (cast_col _ hs p).trans ?_
  refine (lane_sum (mulf A A) hr hφ hacc p).trans ?_
  refine Finset.sum_congr rfl fun k _ => ?_
  show A (ix2 p k) * A (ix2 p k) = a k * a k
  rw [hA k]

/-- The body's one store, read at row p and column j of the block: the result row of the block's row p. -/
theorem pay_apply (x0 : Vec Ideal S4000x64 .f32) (x1 : Vec Ideal S4000x1 .f32) (x2 : Vec Ideal S4000x64 .f32)
    (x3 x4 : Vec Ideal S64x64 .f32) (p : Fin 4000) (j : Fin 64) :
    k1_pay1 (F := Ideal) x0 x1 x2 x3 x4 (ix2 p j)
      = Cert.Spec.rowOut Cert.Spec.slope Cert.Spec.floor (fun k => x0 (ix2 p k))
          (fun k => x0 (ix2 p k) * x1 (ix2 p (0 : Fin 1))) (fun k => x0 (ix2 p k) * x2 (ix2 p k))
          (fun k j => x3 (ix2 k j)) (fun k j => x4 (ix2 k j)) j := by
  unfold k1_pay1
  refine finish_at _ (fun k => Cert.Spec.rowAct Cert.Spec.slope (fun k => x0 (ix2 p k))
      (fun k => x0 (ix2 p k) * x1 (ix2 p (0 : Fin 1))) (fun k => x0 (ix2 p k) * x2 (ix2 p k))
      (fun k j => x3 (ix2 k j)) (fun k j => x4 (ix2 k j)) k) _ _ _ _ _ _ p j ?_
  intro k
  exact (act_at _ _).trans (congrArg (Cert.Spec.leaky Cert.Spec.slope) (pre_at x0 x1 x2 x3 x4 p k))

variable (V : (c : Dev nD) → (b : Ref sig .tc) → Buf (Elt Ideal) ((c : Thread nD τ).loc b))

/-! ## From the blocks to the array -/

theorem zero_off : (![0, 0] : Fin 2 → Nat) = fun _ => 0 := funext fun a => by fin_cases a <;> rfl

/-- The printed index maps over the grid: the three node-indexed inputs and the result move one block of rows per
    point, the two weight matrices stay where they are; and the grid has 25 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 25 :=
  (by decide +kernel : ∀ t : Fin grid1.N, _)

/-- Every block of rows is some point's. -/
theorem idx_onto : ∀ q : Fin 25, ∃ t : Fin cfg1.N, t.val = q.val :=
  (by decide +kernel : ∀ q : Fin 25, ∃ t : Fin grid1.N, t.val = q.val)

/-- One row of a block of the body from the whole arrays: when row p of the three node-indexed blocks is row r of their
    arrays and the two matrix blocks are their arrays, the body's entry (p, j) is the dense finish at (r, j). -/
theorem blk_row (x0 : Vec Ideal S4000x64 .f32) (x1 : Vec Ideal S4000x1 .f32) (x2 : Vec Ideal S4000x64 .f32)
    (x3 x4 : Vec Ideal S64x64 .f32) (feat : S100000x64.Idx → EReal) (s1 : S100000x1.Idx → EReal)
    (g : S100000x64.Idx → EReal) (wg wi : S64x64.Idx → EReal) (p : Fin 4000) (j : Fin 64) (r : Fin 100000)
    (h0 : ∀ k : Fin 64, x0 (ix2 p k) = feat (ix2 r k)) (h1 : x1 (ix2 p (0 : Fin 1)) = s1 (ix2 r (0 : Fin 1)))
    (h2 : ∀ k : Fin 64, x2 (ix2 p k) = g (ix2 r k)) (h3 : ∀ k j : Fin 64, x3 (ix2 k j) = wg (ix2 k j))
    (h4 : ∀ k j : Fin 64, x4 (ix2 k j) = wi (ix2 k j)) :
    k1_pay1 (F := Ideal) x0 x1 x2 x3 x4 (ix2 p j) = Cert.Spec.finishAt feat s1 g wg wi r j := by
  rw [pay_apply]
  unfold Cert.Spec.finishAt
  simp only [h0, h1, h2, h3, h4]

/-! ### Where a block's entry sits in its array -/

/-- Row p of the block of rows of point t is row 4000·t + p of a node-indexed [100000,64] array (window 0). -/
theorem emb0 (t : Fin cfg1.N) (p : Fin 4000) (k : Fin 64) (r : Fin 100000) (hr : r.val = 4000 * t.val + p.val) :
    ((cfg1.win 0).blk t).view.emb (ix2 p k) = ix2 r k := by
  obtain ⟨e0, e1, -⟩ := idx_facts t
  funext a; apply Fin.ext
  match a with
  | ⟨0, _⟩ => show win1_0.index t (0 : Fin 2) * 4000 + 1 * p.val = r.val; omega
  | ⟨1, _⟩ => show win1_0.index t (1 : Fin 2) * 64 + 1 * k.val = k.val; omega

/-- The same for the column [100000,1] (window 1). -/
theorem emb1 (t : Fin cfg1.N) (p : Fin 4000) (r : Fin 100000) (hr : r.val = 4000 * t.val + p.val) :
    ((cfg1.win 1).blk t).view.emb (ix2 p (0 : Fin 1)) = ix2 r (0 : Fin 1) := by
  obtain ⟨-, -, e0, e1, -⟩ := idx_facts t
  funext a; apply Fin.ext
  match a with
  | ⟨0, _⟩ => show win1_1.index t (0 : Fin 2) * 4000 + 1 * p.val = r.val; omega
  | ⟨1, _⟩ => show win1_1.index t (1 : Fin 2) * 1 + 1 * 0 = 0; omega

/-- The same for window 2. -/
theorem emb2 (t : Fin cfg1.N) (p : Fin 4000) (k : Fin 64) (r : Fin 100000) (hr : r.val = 4000 * t.val + p.val) :
    ((cfg1.win 2).blk t).view.emb (ix2 p k) = ix2 r k := by
  obtain ⟨-, -, -, -, e0, e1, -⟩ := idx_facts t
  funext a; apply Fin.ext
  match a with
  | ⟨0, _⟩ => show win1_2.index t (0 : Fin 2) * 4000 + 1 * p.val = r.val; omega
  | ⟨1, _⟩ => show win1_2.index t (1 : Fin 2) * 64 + 1 * k.val = k.val; omega

/-- The one block of a weight matrix is the matrix (window 3). -/
theorem emb3 (t : Fin cfg1.N) (k j : Fin 64) : ((cfg1.win 3).blk t).view.emb (ix2 k j) = ix2 k j := by
  obtain ⟨-, -, -, -, -, -, e0, e1, -⟩ := idx_facts t
  funext a; apply Fin.ext
  match a with
  | ⟨0, _⟩ => show win1_3.index t (0 : Fin 2) * 64 + 1 * k.val = k.val; omega
  | ⟨1, _⟩ => show win1_3.index t (1 : Fin 2) * 64 + 1 * j.val = j.val; omega

/-- The same for window 4. -/
theorem emb4 (t : Fin cfg1.N) (k j : Fin 64) : ((cfg1.win 4).blk t).view.emb (ix2 k j) = ix2 k j := by
  obtain ⟨-, -, -, -, -, -, -, -, e0, e1, -⟩ := idx_facts t
  funext a; apply Fin.ext
  match a with
  | ⟨0, _⟩ => show win1_4.index t (0 : Fin 2) * 64 + 1 * k.val = k.val; omega
  | ⟨1, _⟩ => show win1_4.index t (1 : Fin 2) * 64 + 1 * j.val = j.val; omega

/-- The result's block of rows (window 5). -/
theorem emb5 (t : Fin cfg1.N) (p : Fin 4000) (k : Fin 64) (r : Fin 100000) (hr : r.val = 4000 * t.val + p.val) :
    ((cfg1.win 5).blk t).view.emb (ix2 p k) = ix2 r k := by
  obtain ⟨-, -, -, -, -, -, -, -, -, -, e0, e1, -⟩ := idx_facts t
  funext a; apply Fin.ext
  match a with
  | ⟨0, _⟩ => show win1_5.index t (0 : Fin 2) * 4000 + 1 * p.val = r.val; omega
  | ⟨1, _⟩ => show win1_5.index t (1 : Fin 2) * 64 + 1 * k.val = k.val; omega

/-! ### What a point writes back -/

/-- The array the result ends holding: the dense finish of the five input arrays, entry by entry. -/
abbrev G (c : Dev nD) : S100000x64.Idx → EReal := fun i =>
  Cert.Spec.finishAt (V c main_arg0) (V c main_v29) (V c main_v24) (V c main_v30) (V c main_v31) (i 0) (i 1)

/-- What point t writes back is block t of that array. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero zero_off]
  simp only [View.ld_unit_zero (S := S4000x64) zero_off, View.ld_unit_zero (S := S4000x1) zero_off,
    View.ld_unit_zero (S := S64x64) zero_off]
  funext y
  obtain ⟨p, j, rfl⟩ : ∃ (p : Fin 4000) (j : Fin 64), y = ix2 p j := ⟨y 0, y 1, eq_ix2 y⟩
  have ht : t.val < 25 := (idx_facts t).2.2.2.2.2.2.2.2.2.2.2.2
  have hp : p.val < 4000 := p.isLt
  obtain ⟨r, hr⟩ : ∃ r : Fin 100000, r.val = 4000 * t.val + p.val := ⟨⟨4000 * t.val + p.val, by omega⟩, rfl⟩
  show k1_pay1 (F := Ideal) (iblk1 V c 0 t) (iblk1 V c 1 t) (iblk1 V c 2 t) (iblk1 V c 3 t) (iblk1 V c 4 t) (ix2 p j)
    = G V c (((cfg1.win 5).blk t).view.emb (ix2 p j))
  rw [emb5 t p j r hr]
  refine blk_row (iblk1 V c 0 t) (iblk1 V c 1 t) (iblk1 V c 2 t) (iblk1 V c 3 t) (iblk1 V c 4 t)
    (V c main_arg0) (V c main_v29) (V c main_v24) (V c main_v30) (V c main_v31) p j r ?_ ?_ ?_ ?_ ?_
  · intro k
    show V c main_arg0 (((cfg1.win 0).blk t).view.emb (ix2 p k)) = _
    rw [emb0 t p k r hr]
  · show V c main_v29 (((cfg1.win 1).blk t).view.emb (ix2 p (0 : Fin 1))) = _
    rw [emb1 t p r hr]
  · intro k
    show V c main_v24 (((cfg1.win 2).blk t).view.emb (ix2 p k)) = _
    rw [emb2 t p k r hr]
  · intro k j'
    show V c main_v30 (((cfg1.win 3).blk t).view.emb (ix2 k j')) = _
    rw [emb3 t k j']
  · intro k j'
    show V c main_v31 (((cfg1.win 4).blk t).view.emb (ix2 k j')) = _
    rw [emb4 t k j']

/-! ### The blocks cover the array -/

/-- An index of the array is in point t's block iff each coordinate is in the block's range on its axis. -/
theorem mem_blk (t : Fin cfg1.N) (i : S100000x64.Idx) :
    i ∈ ((cfg1.win 5).blk t).view.set
      ↔ ∀ a : Fin 2, win1_5.index t a * S4000x64.size a ≤ (i a).val
          ∧ (i a).val < win1_5.index t a * S4000x64.size a + S4000x64.size a := by
  show i ∈ ((View.whole main_v32).slice (win1_5.rect t)).set ↔ _
  rw [View.set_slice_whole, Rect.mem_set_unit]
  exact Iff.rfl

/-- Row r of the array is in the block of point r / 4000, which is written back. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 4000, by omega⟩
  have ht' : t.val = (i 0).val / 4000 := ht
  obtain ⟨-, -, -, -, -, -, -, -, -, -, e0, e1, -⟩ := idx_facts t
  refine ⟨t, flush1_5 t, ?_⟩
  rw [mem_blk]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 64 ≤ (i 1).val ∧ (i 1).val < win1_5.index t (1 : Fin 2) * 64 + 64
    omega

/-- The result array after the region. -/
theorem finish_arr (c : Dev nD) :
    (dat1 (F := Ideal) V c).arrAt 5 cfg1.N
      = fun i => Cert.Spec.finishAt (V c main_arg0) (V c main_v29) (V c main_v24) (V c main_v30) (V c main_v31) (i 0) (i 1) := by
  exact (dat1 (F := Ideal) V c).arrAt_eq_of_cover 5 (G V c) (fun t _ => flushed_eq V c t) cover

end Cert.KernelIdeal.Region1
end
-- ==== Proof.KValue.lean ====
/-
  The kernel program's result as ONE function of its six argument arrays, and its run stated with that function.

  Reading the run backwards: the result buffer holds what the second pallas_call's write-backs assemble to, the dense
  finish of the arrays that call found; those are the argument features, the two sums over incoming edges of the first
  call's outputs, and the transposed weight matrices; the first call's outputs are the edge weights and the weighted
  source features of the arrays IT found, which are gathers of the arguments.
-/
import proofs.«177534_j81398220194344_1_alg».proof.Proof.KRun
import proofs.«177534_j81398220194344_1_alg».proof.Proof.HostK
import proofs.«177534_j81398220194344_1_alg».proof.Proof.Region0
import proofs.«177534_j81398220194344_1_alg».proof.Proof.Region1

set_option maxRecDepth 16384
noncomputable section
namespace Cert.KernelIdeal.KValue

open Idealize.ShloMosaic Idealize.ShloMosaic.TcCoe Idealize.SL.Sem
open Cert.KernelIdeal Cert.KernelIdeal.Gen Cert.KernelIdeal.HostValue

/-- The result array as a function of the arguments: features, degrees, the two weight matrices, source and
    destination words. -/
def result (feat : FVec Ideal S100000x64 .f32) (deg : FVec Ideal S100000x1 .f32) (wg wi : FVec Ideal S64x64 .f32)
    (src dst : IVec S1000000 32) : FVec Ideal S100000x64 .f32 :=
  fun i => Cert.Spec.finishAt feat
    (sumCol dst (Cert.Spec.edgeWeight (endDeg deg src) (endDeg deg dst)))
    (sumRows dst (Cert.Spec.scaleRows (srcRows feat src) (Cert.Spec.edgeWeight (endDeg deg src) (endDeg deg dst))))
    (transposed wg) (transposed wi) (i 0) (i 1)

variable (m : (ℓ : Loc nD τ sig) → Buf (Elt Ideal) ℓ) (ρ : Dev nD → PrngReg)

/-- The first call's two output buffers at its exit are what its write-backs assemble to. -/
theorem W2_v21_0 (c : Dev nD) : W2 m ρ c (Proc.devRef .tc main_v21_0) = (dat0 (V1 m ρ) c).arrAt 3 cfg0.N := W2_arr m ρ c 3
theorem W2_v21_1 (c : Dev nD) : W2 m ρ c (Proc.devRef .tc main_v21_1) = (dat0 (V1 m ρ) c).arrAt 4 cfg0.N := W2_arr m ρ c 4

/-- The last boundary's contents at the result buffer are `result` of the launch contents of the arguments. -/
theorem result_eq (c : Dev nD) :
    W4 m ρ c (Proc.devRef .tc main_v32)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Cert.KernelIdeal.RunValue.W4_result, Cert.KernelIdeal.Region1.finish_arr (V3 m ρ) c, V3_arg0, V3_v29, V3_v24, V3_v30,
    V3_v31, W2_v21_0, W2_v21_1, Cert.KernelIdeal.Region0.scaled_arr (V1 m ρ) c, Cert.KernelIdeal.Region0.weights_arr (V1 m ρ) c,
    V1_v6, V1_v13, V1_v20]
  rfl

/-- Every weakly fair execution terminates without a fault, the result at `result` of the arguments, the arguments
    unchanged. -/
theorem run : θ_run defs (onTc (τ := τ) (main (F := Ideal))) ⟨m, fun _ => 0, ρ⟩ (fun r => ∀ c : Dev nD,
      r.2.mem ((c.tc : Thread nD τ).loc main_v32)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.RunValue.run m ρ)

end Cert.KernelIdeal.KValue
end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.LibScatter1.lean ====
/-
  Single entries accumulated into a vector through a column of index words, read at an index.

  The operand is a vector of `N` entries; the indices are a column of `M` words, each naming an entry; the updates
  are a vector of `M` entries. An ACCUMULATING SCATTER adds update entry `e` to operand entry `idx[e]` (the word
  read signed; an entry outside `[0, N)` is dropped). On the extended reals entry `n` of the result is the
  operand's entry plus the sum, over the `e` with `idx[e] = n`, of update entry `e` (`hostScatterAdd_entries_apply`),
  because update entry `e` lands exactly at `idx[e]` (`resultIdx?_entries`).
-/
import Idealize.ShloMosaic.PureOps.Ideal
import Idealize.ShloMosaic.Lib.ValueIdx

noncomputable section
open scoped BigOperators
namespace Cert.LibScatter1

open Idealize.ShloMosaic Idealize.ShloMosaic.ValueIdx

/-- The dimension numbers of a scatter of single entries into a vector: the updates have no window axis, the one
    operand axis is the inserted one and the one the index names. -/
abbrev entryScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- On the one operand axis an update's start is its index word, read signed. -/
theorem start0 (j : (⟨1, ![M]⟩ : Shape).Idx) (idx : IVec ⟨2, ![M, 1]⟩ w) :
    (entryScatterDims N M wf).start j idx 0 = (idx (ix2 (j 0) (0 : Fin 1))).toInt := by
  unfold ScatterDims.start
  rw [dif_pos (show (0 : Fin 1) ∈ (entryScatterDims N M wf).scatterDimsToOperandDims from List.mem_singleton.mpr rfl)]
  congr 2
  funext b; refine Fin.ext ?_
  match b with
  | ⟨0, _⟩ => rfl
  | ⟨1, _⟩ => rfl

/-- Update entry `e` lands at `n` exactly when its index word, read signed, is `n`. -/
theorem resultIdx?_entries (e : Fin M) (idx : IVec ⟨2, ![M, 1]⟩ w) (n : Fin N) :
    (entryScatterDims N M wf).resultIdx? (ix1 e) idx = some (ix1 n) ↔
      (idx (ix2 e (0 : Fin 1))).toInt = (n.val : ℤ) := by
  have hs : (entryScatterDims N M wf).start (ix1 e) idx 0 = (idx (ix2 e (0 : Fin 1))).toInt := start0 wf _ idx
  unfold ScatterDims.resultIdx?
  split
  · next h =>
    rw [Option.some.injEq]
    constructor
    · intro hf
      have h0 := congrArg (fun f => (f 0).val) hf
      have g0 := (h 0).1
      simp only at h0
      have e1 : ((entryScatterDims N M wf).start (ix1 e) idx 0 + ((0 : ℕ) : ℤ)).toNat = n.val := h0
      have e2 : 0 ≤ (entryScatterDims N M wf).start (ix1 e) idx 0 + ((0 : ℕ) : ℤ) := g0
      rw [hs] at e1 e2
      omega
    · intro hx
      funext a
      refine Fin.ext ?_
      match a with
      | ⟨0, _⟩ =>
        show ((entryScatterDims N M wf).start (ix1 e) idx 0 + ((0 : ℕ) : ℤ)).toNat = n.val
        rw [hs, hx]; omega
  · next h =>
    constructor
    · intro hf; exact absurd hf (by simp)
    · intro hx
      exfalso; apply h
      intro a
      match a with
      | ⟨0, _⟩ =>
        show 0 ≤ (entryScatterDims N M wf).start (ix1 e) idx 0 + ((0 : ℕ) : ℤ)
          ∧ (entryScatterDims N M wf).start (ix1 e) idx 0 + ((0 : ℕ) : ℤ) < ((N : ℕ) : ℤ)
        rw [hs, hx]; have := n.isLt; omega

/-- The accumulating entry scatter read at `n`: the operand's entry plus the update entries `e` whose index
    word names entry `n`. -/
theorem hostScatterAdd_entries_apply (x : (⟨1, ![N]⟩ : Shape).Idx → EReal) (idx : IVec ⟨2, ![M, 1]⟩ w)
    (upd : (⟨1, ![M]⟩ : Shape).Idx → EReal) (n : Fin N) :
    Ideal.hostScatterAdd (entryScatterDims N M wf) x idx upd (ix1 n)
      = x (ix1 n) + ∑ e : Fin M, if (idx (ix2 e (0 : Fin 1))).toInt = (n.val : ℤ) then upd (ix1 e) else 0 := by
  unfold Ideal.hostScatterAdd
  refine congrArg (x (ix1 n) + ·) ?_
  rw [← Finset.sum_filter]
  refine Finset.sum_nbij' (fun j => (j 0 : Fin M)) (fun e => ix1 e) ?_ ?_ ?_ ?_ ?_
  · intro j hj
    have hj' := (Finset.mem_filter.mp hj).2
    rw [eq_ix1 j] at hj'
    exact Finset.mem_filter.mpr ⟨Finset.mem_univ _, (resultIdx?_entries wf _ idx n).mp hj'⟩
  · intro e he
    have he' := (Finset.mem_filter.mp he).2
    exact Finset.mem_filter.mpr ⟨Finset.mem_univ _, (resultIdx?_entries wf e idx n).mpr he'⟩
  · intro j _
    exact (eq_ix1 j).symm
  · intro e _; rfl
  · intro j _
    exact congrArg upd (eq_ix1 j)

end Cert.LibScatter1
end
-- ==== Proof.LibColumn.lean ====
/-
  A column [a, 1] cast to a vector [a], read at an index: entry i of the vector is entry (i, 0) of the column
  (both are position i of the row-major order).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn

end
-- ==== Proof.KSums.lean ====
/-
  The kernel program's two sums over incoming edges, read at a node.

  Both are accumulating scatters into zeros by the raw destination words: entry (n, k) of the summed rows is the sum,
  over the edges e whose destination word read signed is n, of entry (e, k) of the summed array; entry (n, 0) of the
  summed column is the same sum of the column's entries.
-/
import proofs.«177534_j81398220194344_1_alg».proof.Proof.HostK
import proofs.«177534_j81398220194344_1_alg».proof.Proof.LibNodeScatter
import proofs.«177534_j81398220194344_1_alg».proof.Proof.LibScatter1
import proofs.«177534_j81398220194344_1_alg».proof.Proof.LibColumn
import Idealize.ShloMosaic.Lib.Pipeline.Value
import Idealize.ShloMosaic.PureOps.Ideal.Laws

set_option maxRecDepth 16384
noncomputable section
open scoped BigOperators
namespace Cert.KernelIdeal.HostValue

open Idealize.ShloMosaic Idealize.ShloMosaic.ValueIdx
open Cert.KernelIdeal Cert.KernelIdeal.Gen

/-- The raw index column at row e is word e. -/
theorem rawCol_apply (dst : IVec S1000000 32) (e : Fin 1000000) : rawCol dst (ix2 e (0 : Fin 1)) = dst (ix1 e) := by
  unfold rawCol
  exact broadcastInDim_apply _ bcast_S1000000_S1000000x1_0 dst _ (ix1 e) (fun a => match a with
    | ⟨0, _⟩ => by show e.val = if (1000000 : Nat) = 1 then 0 else e.val; rw [if_neg (by decide)])

/-- The splat of the zero word is zero everywhere. -/
theorem zeros64_apply (i : S100000x64.Idx) :
    broadcastInDim S100000x64 ![] bcast_S_S100000x64 (constant (F := Ideal) S_ .f32 0x00000000#32) i = 0 := by
  rw [broadcastInDim_apply _ bcast_S_S100000x64 _ i (fun a => a.elim0) (fun a => a.elim0)]
  exact Ideal.ofBits_zero_f32
theorem zeros1_apply (i : S100000.Idx) :
    broadcastInDim S100000 ![] bcast_S_S100000 (constant (F := Ideal) S_ .f32 0x00000000#32) i = 0 := by
  rw [broadcastInDim_apply _ bcast_S_S100000 _ i (fun a => a.elim0) (fun a => a.elim0)]
  exact Ideal.ofBits_zero_f32

theorem sumRows_apply (dst : IVec S1000000 32) (upd : FVec Ideal S1000000x64 .f32) (n : Fin 100000) (k : Fin 64) :
    sumRows dst upd (ix2 n k)
      = ∑ e : Fin 1000000, if (dst (ix1 e)).toInt = (n.val : ℤ) then upd (ix2 e k) else 0 := by
  have hd : scatter_S100000x64_S1000000x1_S1000000x64_1_0_0_1
      = Cert.LibNodes.nodeScatterDims 100000 64 1000000 scatter_S100000x64_S1000000x1_S1000000x64_1_0_0_1_wf := rfl
  unfold sumRows
  rw [Host.scatterAdd, Ideal.hostScatterAdd_def, hd, Cert.LibNodes.hostScatterAdd_nodes_apply, zeros64_apply, zero_add]
  exact Finset.sum_congr rfl fun e _ => by rw [rawCol_apply]

theorem sumCol_apply (dst : IVec S1000000 32) (w : FVec Ideal S1000000x1 .f32) (n : Fin 100000) :
    sumCol dst w (ix2 n (0 : Fin 1))
      = ∑ e : Fin 1000000, if (dst (ix1 e)).toInt = (n.val : ℤ) then w (ix2 e (0 : Fin 1)) else 0 := by
  have hd : scatter_S100000_S1000000x1_S1000000_n_0_0_1
      = Cert.LibScatter1.entryScatterDims 100000 1000000 scatter_S100000_S1000000x1_S1000000_n_0_0_1_wf := rfl
  unfold sumCol
  rw [broadcastInDim_apply _ bcast_S100000_S100000x1_0 _ (ix2 n (0 : Fin 1)) (ix1 n) (fun a => match a with
    | ⟨0, _⟩ => by show n.val = if (100000 : Nat) = 1 then 0 else n.val; rw [if_neg (by decide)])]
  rw [Host.scatterAdd, Ideal.hostScatterAdd_def, hd, Cert.LibScatter1.hostScatterAdd_entries_apply, zeros1_apply, zero_add]
  exact Finset.sum_congr rfl fun e _ => by
    rw [rawCol_apply]
    exact if_congr Iff.rfl (Cert.LibColumn.shapeCast_a1_a_apply w shapeCasts_S1000000x1_S1000000 e) rfl

end Cert.KernelIdeal.HostValue
end
-- ==== Proof.RefValue.lean ====
/-
  The reference program's result, read at a node n and a column j.

  The reference scatters, for every edge e, the row  feat[dst e] · w e  (and  (feat[dst e] · feat[src e]) · w e ) into
  node  dst e ; an edge lands on node n exactly when its destination word, read signed, is n, and then the gathered
  row feat[dst e] IS row n. So the two aggregated messages of node n are sums over the edges landing on n with the
  node's own feature inside each term, and the rest of the program is the dense finish of `Cert.Spec.rowOut`.
-/
import proofs.«177534_j81398220194344_1_alg».proof.Proof.Gen.ReferenceIdeal.Read
import proofs.«177534_j81398220194344_1_alg».proof.Proof.Spec
import proofs.«177534_j81398220194344_1_alg».proof.Proof.LibNodeScatter
import Idealize.ShloMosaic.PureOps.Ideal.Laws

set_option maxRecDepth 16384
noncomputable section
open scoped BigOperators
namespace Cert.ReferenceIdeal.RefValue

open Idealize.ShloMosaic Idealize.ShloMosaic.ValueIdx
open Cert.ReferenceIdeal Cert.ReferenceIdeal.Read Cert.Spec

variable (x0 : (⟨S100000x64, .f32⟩ : BufTy).Contents (Elt Ideal)) (x1 : (⟨S100000x1, .f32⟩ : BufTy).Contents (Elt Ideal))
  (x2 x3 : (⟨S64x64, .f32⟩ : BufTy).Contents (Elt Ideal)) (x4 x5 : (⟨S1000000, .i32⟩ : BufTy).Contents (Elt Ideal))

/-! ## The composed index functions at coordinates -/

theorem lidx45 (n : Fin 100000) (j k : Fin 64) : lidx_main_v45 (ix2 n j) k = ix2 n k :=
  funext fun a => Fin.ext (by match a with | ⟨0, _⟩ => rfl | ⟨1, _⟩ => rfl)
theorem ridx45 (n : Fin 100000) (j k : Fin 64) : ridx_main_v45 (ix2 n j) k = ix2 k j :=
  funext fun a => Fin.ext (by match a with | ⟨0, _⟩ => rfl | ⟨1, _⟩ => rfl)
theorem lidx47 (n : Fin 100000) (j k : Fin 64) : lidx_main_v47 (ix2 n j) k = ix2 n k :=
  funext fun a => Fin.ext (by match a with | ⟨0, _⟩ => rfl | ⟨1, _⟩ => rfl)
theorem ridx47 (n : Fin 100000) (j k : Fin 64) : ridx_main_v47 (ix2 n j) k = ix2 k j :=
  funext fun a => Fin.ext (by match a with | ⟨0, _⟩ => rfl | ⟨1, _⟩ => rfl)
theorem lidx50 (n : Fin 100000) (j k : Fin 64) : lidx_main_v50 (ix2 n j) k = ix2 n k :=
  funext fun a => Fin.ext (by match a with | ⟨0, _⟩ => rfl | ⟨1, _⟩ => rfl)
theorem ridx50 (n : Fin 100000) (j k : Fin 64) : ridx_main_v50 (ix2 n j) k = ix2 k j :=
  funext fun a => Fin.ext (by match a with | ⟨0, _⟩ => rfl | ⟨1, _⟩ => rfl)
theorem idx58 (n : Fin 100000) (k : Fin 64) : idx_main_v58 (ix1 n) k = ix2 n k :=
  funext fun a => Fin.ext (by match a with | ⟨0, _⟩ => rfl | ⟨1, _⟩ => rfl)
theorem idx59 (n : Fin 100000) : idx_main_v59 (ix2 n (0 : Fin 1)) = ix1 n :=
  funext fun a => Fin.ext (by match a with | ⟨0, _⟩ => rfl)
theorem idx63 (n : Fin 100000) (j : Fin 64) : idx_main_v63 (ix2 n j) = ix2 n (0 : Fin 1) :=
  funext fun a => Fin.ext (by match a with | ⟨0, _⟩ => rfl | ⟨1, _⟩ => rfl)

/-! ## The dense finish -/

section Sums
variable (A : S100000x64.Idx → EReal) (B : S64x64.Idx → EReal)

/-- A product of a node-by-feature array with a 64 × 64 matrix read at (n, j), over explicit coordinates. -/
theorem dot45 (n : Fin 100000) (j : Fin 64) :
    (∑ k : Fin 64, A (lidx_main_v45 (ix2 n j) k) * B (ridx_main_v45 (ix2 n j) k)) = ∑ k : Fin 64, A (ix2 n k) * B (ix2 k j) :=
  Finset.sum_congr rfl fun k _ => by rw [lidx45, ridx45]
theorem dot47 (n : Fin 100000) (j : Fin 64) :
    (∑ k : Fin 64, A (lidx_main_v47 (ix2 n j) k) * B (ridx_main_v47 (ix2 n j) k)) = ∑ k : Fin 64, A (ix2 n k) * B (ix2 k j) :=
  Finset.sum_congr rfl fun k _ => by rw [lidx47, ridx47]
theorem dot50 (n : Fin 100000) (j : Fin 64) :
    (∑ k : Fin 64, A (lidx_main_v50 (ix2 n j) k) * B (ridx_main_v50 (ix2 n j) k)) = ∑ k : Fin 64, A (ix2 n k) * B (ix2 k j) :=
  Finset.sum_congr rfl fun k _ => by rw [lidx50, ridx50]
/-- A row's sum over its 64 columns, over explicit coordinates. -/
theorem sum58 (n : Fin 100000) :
    (∑ k : Fin 64, A (idx_main_v58 (ix1 n) k)) = ∑ k : Fin 64, A (ix2 n k) :=
  Finset.sum_congr rfl fun k _ => by rw [idx58]
end Sums

/-- The second transpose of the first weight matrix is the first. -/
theorem v49_eq : val_main_v49 (F := Ideal) x2 = val_main_v44 (F := Ideal) x2 := rfl

/-- The three products summed, at (n, j). -/
theorem pre_apply (n : Fin 100000) (j : Fin 64) :
    val_main_v51 (F := Ideal) x0 x1 x2 x3 x4 x5 (ix2 n j)
      = rowPre (fun k => x0 (ix2 n k)) (fun k => val_main_v40 (F := Ideal) x0 x1 x4 x5 (ix2 n k))
          (fun k => val_main_v43 (F := Ideal) x0 x1 x4 x5 (ix2 n k))
          (fun k j => val_main_v44 (F := Ideal) x2 (ix2 k j)) (fun k j => val_main_v46 (F := Ideal) x3 (ix2 k j)) j := by
  rw [val_main_v51_apply, val_main_v48_apply, val_main_v45_apply, val_main_v47_apply, val_main_v50_apply, v49_eq,
    dot45 (val_main_v40 (F := Ideal) x0 x1 x4 x5) (val_main_v44 (F := Ideal) x2) n j,
    dot47 (val_main_v43 (F := Ideal) x0 x1 x4 x5) (val_main_v46 (F := Ideal) x3) n j,
    dot50 x0 (val_main_v44 (F := Ideal) x2) n j]
  generalize val_main_v40 (F := Ideal) x0 x1 x4 x5 = A
  generalize val_main_v43 (F := Ideal) x0 x1 x4 x5 = B
  generalize val_main_v44 (F := Ideal) x2 = G
  generalize val_main_v46 (F := Ideal) x3 = H
  rfl

/-- The leaky rectifier as the reference spells it: a comparison with the zero word, the slope word times the value. -/
theorem leaky_spelt (u : EReal) :
    Scalar.select (FloatOps.cmpf (F := Ideal) (φ := .f32) .oge u (FloatOps.ofBits (F := Ideal) .f32 0x00000000#32)) u
        (FloatOps.mulf (F := Ideal) (φ := .f32) (FloatOps.ofBits (F := Ideal) .f32 0x3E4CCCCD#32) u) = leaky slope u := by
  show Scalar.select (Ideal.cmp .oge u (Ideal.ofBits .f32 0x00000000#32)) u (Ideal.ofBits .f32 0x3E4CCCCD#32 * u) = _
  rw [Ideal.ofBits_zero_f32]
  rfl

/-- The activated entry at (n, j). -/
theorem act_apply (n : Fin 100000) (j : Fin 64) :
    val_main_v56 (F := Ideal) x0 x1 x2 x3 x4 x5 (ix2 n j)
      = rowAct slope (fun k => x0 (ix2 n k)) (fun k => val_main_v40 (F := Ideal) x0 x1 x4 x5 (ix2 n k))
          (fun k => val_main_v43 (F := Ideal) x0 x1 x4 x5 (ix2 n k))
          (fun k j => val_main_v44 (F := Ideal) x2 (ix2 k j)) (fun k j => val_main_v46 (F := Ideal) x3 (ix2 k j)) j := by
  rw [val_main_v56_apply, val_main_v53_apply, val_main_v55_apply, val_main_v52_apply, val_main_v54_apply,
    val_main_cst_9_apply, val_main_cst_10_apply, pre_apply]
  exact leaky_spelt _

/-- A row scaled to unit length as the reference spells it. -/
theorem scaled_spelt (a : Fin 64 → EReal) (j : Fin 64) :
    FloatOps.hostDivf (F := Ideal) (φ := .f32) (a j)
        (FloatOps.maximumf (F := Ideal) (φ := .f32)
          (FloatOps.hostUnary (F := Ideal) (φ := .f32) .sqrt
            (FloatOps.ofBits (F := Ideal) .f32 0x00000000#32 + ∑ k : Fin 64, FloatOps.mulf (F := Ideal) (φ := .f32) (a k) (a k)))
          (FloatOps.ofBits (F := Ideal) .f32 0x2B8CBCCC#32))
      = Ideal.div (a j) (max (Ideal.sqrt (∑ k : Fin 64, a k * a k)) floor) := by
  show Ideal.div (a j) (max (Ideal.sqrt (Ideal.ofBits .f32 0x00000000#32 + ∑ k : Fin 64, a k * a k)) (Ideal.ofBits .f32 0x2B8CBCCC#32)) = _
  rw [Ideal.ofBits_zero_f32, zero_add]

/-- The result at (n, j). -/
theorem out_apply (n : Fin 100000) (j : Fin 64) :
    val_main_v64 (F := Ideal) x0 x1 x2 x3 x4 x5 (ix2 n j)
      = rowOut slope floor (fun k => x0 (ix2 n k)) (fun k => val_main_v40 (F := Ideal) x0 x1 x4 x5 (ix2 n k))
          (fun k => val_main_v43 (F := Ideal) x0 x1 x4 x5 (ix2 n k))
          (fun k j => val_main_v44 (F := Ideal) x2 (ix2 k j)) (fun k j => val_main_v46 (F := Ideal) x3 (ix2 k j)) j := by
  rw [val_main_v64_apply, val_main_v63_apply, idx63, val_main_v62_apply, val_main_v60_apply, val_main_v59_apply, idx59,
    val_main_v58_apply, val_main_v61_apply, val_main_cst_12_apply, val_main_cst_11_apply,
    sum58 (val_main_v57 (F := Ideal) x0 x1 x2 x3 x4 x5) n]
  have hsq : ∀ k : Fin 64, val_main_v57 (F := Ideal) x0 x1 x2 x3 x4 x5 (ix2 n k)
      = FloatOps.mulf (F := Ideal) (φ := .f32)
          (rowAct slope (fun k => x0 (ix2 n k)) (fun k => val_main_v40 (F := Ideal) x0 x1 x4 x5 (ix2 n k))
            (fun k => val_main_v43 (F := Ideal) x0 x1 x4 x5 (ix2 n k))
            (fun k j => val_main_v44 (F := Ideal) x2 (ix2 k j)) (fun k j => val_main_v46 (F := Ideal) x3 (ix2 k j)) k)
          (rowAct slope (fun k => x0 (ix2 n k)) (fun k => val_main_v40 (F := Ideal) x0 x1 x4 x5 (ix2 n k))
            (fun k => val_main_v43 (F := Ideal) x0 x1 x4 x5 (ix2 n k))
            (fun k j => val_main_v44 (F := Ideal) x2 (ix2 k j)) (fun k j => val_main_v46 (F := Ideal) x3 (ix2 k j)) k) := by
    intro k
    rw [val_main_v57_apply, act_apply]
  rw [Finset.sum_congr rfl (fun k _ => hsq k), act_apply]
  exact scaled_spelt _ j

end Cert.ReferenceIdeal.RefValue
end
-- ==== Proof.RefMsgs.lean ====
/-
  The reference program's two aggregated messages, read at a node n and a feature k.

  An edge e contributes to node n exactly when its destination word, read signed, is n; that word is then
  non-negative and below the node count, so the wrapped and clamped row the reference gathers for e is row n itself.
  Hence the messages are the sums, over the edges landing on n, of  feat[n,k] · w e  and of
  (feat[n,k] · feat[src e, k]) · w e.
-/
import proofs.«177534_j81398220194344_1_alg».proof.Proof.RefValue

set_option maxRecDepth 16384
noncomputable section
open scoped BigOperators
namespace Cert.ReferenceIdeal.RefValue

open Idealize.ShloMosaic Idealize.ShloMosaic.ValueIdx
open Cert.ReferenceIdeal Cert.ReferenceIdeal.Gen Cert.ReferenceIdeal.Read Cert.Spec

variable (x0 : (⟨S100000x64, .f32⟩ : BufTy).Contents (Elt Ideal)) (x1 : (⟨S100000x1, .f32⟩ : BufTy).Contents (Elt Ideal))
  (x4 x5 : (⟨S1000000, .i32⟩ : BufTy).Contents (Elt Ideal))

/-- A word that reads signed as a node number is not negative: the wrap leaves it alone. -/
theorem wrapped_eq (a : BitVec 32) (n : Fin 100000) (h : a.toInt = (n.val : ℤ)) :
    Scalar.select (IntOp.cmpi .slt a 0#32) (IntOp.addi a 100000#32) a = a := by
  have hs : a.slt 0#32 = false := by
    rw [BitVec.slt, h]
    simp
  unfold Scalar.select IntOp.cmpi
  simp [hs]

/-- … and clamping it into the node range gives that node. -/
theorem nodeOf_eq (a : BitVec 32) (n : Fin 100000) (h : a.toInt = (n.val : ℤ)) :
    Cert.LibNodes.nodeOf 100000 (by decide) a = n := by
  unfold Cert.LibNodes.nodeOf
  apply Fin.ext
  show min a.toInt.toNat (100000 - 1) = n.val
  rw [h]
  have := n.isLt
  simp
  omega

theorem idx24 (e : Fin 1000000) : idx_main_v24 (ix2 e (0 : Fin 1)) = ix1 e :=
  funext fun a => Fin.ext (by match a with | ⟨0, _⟩ => rfl)
theorem idx39 (e : Fin 1000000) : idx_main_v39 (ix2 e (0 : Fin 1)) = ix1 e :=
  funext fun a => Fin.ext (by match a with | ⟨0, _⟩ => rfl)
theorem idx42 (e : Fin 1000000) : idx_main_v42 (ix2 e (0 : Fin 1)) = ix1 e :=
  funext fun a => Fin.ext (by match a with | ⟨0, _⟩ => rfl)
theorem idx26 (e : Fin 1000000) (k : Fin 64) : idx_main_v26 (ix2 e k) = ix2 e (0 : Fin 1) :=
  funext fun a => Fin.ext (by match a with | ⟨0, _⟩ => rfl | ⟨1, _⟩ => rfl)
theorem idx36 (e : Fin 1000000) (k : Fin 64) : idx_main_v36 (ix2 e k) = ix2 e (0 : Fin 1) :=
  funext fun a => Fin.ext (by match a with | ⟨0, _⟩ => rfl | ⟨1, _⟩ => rfl)

/-- The destination row gathered for an edge that lands on node n is row n. -/
theorem dstRow_of_lands (e : Fin 1000000) (n : Fin 100000) (k : Fin 64) (h : (x5 (ix1 e)).toInt = (n.val : ℤ)) :
    val_main_v25 (F := Ideal) x0 x5 (ix2 e k) = x0 (ix2 n k) := by
  have hg : gather_S100000x64_S1000000x1_S1000000x64_1_0_n_n_0_1_164
      = Cert.LibNodes.nodeGatherDims 100000 64 1000000 gather_S100000x64_S1000000x1_S1000000x64_1_0_n_n_0_1_164_wf := rfl
  unfold val_main_v25
  rw [hg, Cert.LibNodes.gather_nodes_apply (by decide : 0 < 100000) _ x0 _ e k,
    val_main_v24_apply, idx24, val_main_v23_apply, val_main_v20_apply, val_main_v22_apply, val_main_v19_apply,
    val_main_c_3_apply, val_main_v21_apply, val_main_c_4_apply, wrapped_eq _ n h, nodeOf_eq _ n h]

/-- The first message at (n, k). -/
theorem r1_apply (n : Fin 100000) (k : Fin 64) :
    val_main_v40 (F := Ideal) x0 x1 x4 x5 (ix2 n k)
      = ∑ e : Fin 1000000, if (x5 (ix1 e)).toInt = (n.val : ℤ)
          then x0 (ix2 n k) * val_main_v18 (F := Ideal) x1 x4 x5 (ix2 e (0 : Fin 1)) else 0 := by
  have hd : scatter_S100000x64_S1000000x1_S1000000x64_1_0_0_1
      = Cert.LibNodes.nodeScatterDims 100000 64 1000000 scatter_S100000x64_S1000000x1_S1000000x64_1_0_0_1_wf := rfl
  unfold val_main_v40
  rw [Host.scatterAdd, Ideal.hostScatterAdd_def, hd, Cert.LibNodes.hostScatterAdd_nodes_apply, val_main_v38_apply,
    val_main_cst_7_apply, Ideal.ofBits_def, Ideal.ofBits_zero_f32, zero_add]
  refine Finset.sum_congr rfl fun e _ => ?_
  rw [val_main_v39_apply, idx39]
  by_cases h : (x5 (ix1 e)).toInt = (n.val : ℤ)
  · rw [if_pos h, if_pos h, val_main_v27_apply, val_main_v26_apply, idx26, dstRow_of_lands x0 x5 e n k h]
    rfl
  · rw [if_neg h, if_neg h]

/-- The second message at (n, k). -/
theorem r2_apply (n : Fin 100000) (k : Fin 64) :
    val_main_v43 (F := Ideal) x0 x1 x4 x5 (ix2 n k)
      = ∑ e : Fin 1000000, if (x5 (ix1 e)).toInt = (n.val : ℤ)
          then (x0 (ix2 n k) * val_main_v34 (F := Ideal) x0 x4 (ix2 e k)) * val_main_v18 (F := Ideal) x1 x4 x5 (ix2 e (0 : Fin 1))
          else 0 := by
  have hd : scatter_S100000x64_S1000000x1_S1000000x64_1_0_0_1
      = Cert.LibNodes.nodeScatterDims 100000 64 1000000 scatter_S100000x64_S1000000x1_S1000000x64_1_0_0_1_wf := rfl
  unfold val_main_v43
  rw [Host.scatterAdd, Ideal.hostScatterAdd_def, hd, Cert.LibNodes.hostScatterAdd_nodes_apply, val_main_v41_apply,
    val_main_cst_8_apply, Ideal.ofBits_def, Ideal.ofBits_zero_f32, zero_add]
  refine Finset.sum_congr rfl fun e _ => ?_
  rw [val_main_v42_apply, idx42]
  by_cases h : (x5 (ix1 e)).toInt = (n.val : ℤ)
  · rw [if_pos h, if_pos h, val_main_v37_apply, val_main_v36_apply, idx36, val_main_v35_apply,
      dstRow_of_lands x0 x5 e n k h]
    rfl
  · rw [if_neg h, if_neg h]

end Cert.ReferenceIdeal.RefValue
end
-- ==== Proof.RowAlgebra.lean ====
/-
  The algebra that joins the two bracketings of the aggregated messages.

  The node's own feature, a real number, taken out of a sum over incoming edges or left inside it gives values that
  are equal or both infinite (`Sim`). That relation is kept by the products with the weight matrices and by the sums
  of a row's entry, and by the leaky rectifier (its slope is not zero); and a row whose activated entries are related
  entry by entry to another's has THE SAME unit-length scaling: if some entry is infinite on both sides, both rows
  have infinite length and both scalings are zero everywhere.
-/
import proofs.«177534_j81398220194344_1_alg».proof.Proof.Spec

noncomputable section
open scoped BigOperators
namespace Cert.Spec

open Idealize.ShloMosaic Cert.LibSim

/-- A real factor taken out of, or left inside, a sum over the edges that land on a node: the weights `a`. -/
theorem sim_msg1 {M : Nat} (x : ℝ) (L : Fin M → Prop) [DecidablePred L] (a : Fin M → EReal) :
    Sim ((x : EReal) * ∑ e : Fin M, (if L e then a e else 0)) (∑ e : Fin M, (if L e then (x : EReal) * a e else 0)) :=
  sim_mul_sum_if x L a

/-- The same for the weighted neighbour features `s e · a e`, the factor multiplied onto the feature first. -/
theorem sim_msg2 {M : Nat} (x : ℝ) (L : Fin M → Prop) [DecidablePred L] (s a : Fin M → EReal) :
    Sim ((x : EReal) * ∑ e : Fin M, (if L e then s e * a e else 0))
      (∑ e : Fin M, (if L e then ((x : EReal) * s e) * a e else 0)) :=
  sim_mul_sum_if_mul x L s a

/-- The rectifier of a non-zero slope sends an infinite value to an infinite one. -/
theorem isInf_leaky {c : EReal} (hc : c ≠ 0) {u : EReal} (h : IsInf u) : IsInf (leaky c u) := by
  rcases h with rfl | rfl
  · left
    simp [Cert.Spec.leaky, Ideal.cmp, Scalar.select]
  · have : Cert.Spec.leaky c ⊥ = c * ⊥ := by
      simp [Cert.Spec.leaky, Ideal.cmp, Scalar.select]
    rw [this]
    exact IsInf.mul_left (Or.inr rfl) hc

theorem sim_leaky {c : EReal} (hc : c ≠ 0) {u v : EReal} (h : Sim u v) : Sim (leaky c u) (leaky c v) := by
  rcases h with rfl | ⟨hu, hv⟩
  · exact Sim.refl _
  · exact Or.inr ⟨isInf_leaky hc hu, isInf_leaky hc hv⟩

theorem sim_rowPre (f r1 r1' r2 r2' : Fin 64 → EReal) (wg wi : Fin 64 → Fin 64 → EReal)
    (h1 : ∀ k, Sim (r1 k) (r1' k)) (h2 : ∀ k, Sim (r2 k) (r2' k)) (j : Fin 64) :
    Sim (rowPre f r1 r2 wg wi j) (rowPre f r1' r2' wg wi j) := by
  unfold rowPre
  exact ((Sim.sum _ _ _ fun k _ => (h1 k).mul_right _).add (Sim.sum _ _ _ fun k _ => (h2 k).mul_right _)).add
    (Sim.refl _)

/-! ### A row with an infinite entry has infinite length, and its unit-length scaling is zero -/

theorem scaled_eq_zero (act : Fin 64 → EReal) (ε : EReal) {j₀ : Fin 64} (h : IsInf (act j₀)) (j : Fin 64) :
    Ideal.div (act j) (max (Ideal.sqrt (∑ j' : Fin 64, act j' * act j')) ε) = 0 := by
  have hs : (∑ j' : Fin 64, act j' * act j') = ⊤ := by
    refine top_le_iff.mp ?_
    rw [← h.mul_self]
    exact Finset.single_le_sum (f := fun j' => act j' * act j') (fun i _ => mul_self_nonneg' (act i))
      (Finset.mem_univ j₀)
  have hq : Ideal.sqrt ⊤ = ⊤ := rfl
  rw [hs, hq, max_eq_left le_top]
  unfold Ideal.div
  rw [if_neg EReal.top_ne_zero, EReal.inv_top, mul_zero]

/-- The slope of the rectifier is not zero. -/
theorem slope_ne_zero : slope ≠ 0 := by
  have h : slope = ((13421773 / 67108864 : ℝ) : EReal) := by
    simp [slope, Ideal.ofBits, Ideal.ieee, -EReal.coe_mul]; norm_num
  rw [h]
  exact_mod_cast (by norm_num : (13421773 / 67108864 : ℝ) ≠ 0)

/-- Rows whose two messages are related entry by entry have the same result row. -/
theorem rowOut_congr (c ε : EReal) (hc : c ≠ 0) (f r1 r1' r2 r2' : Fin 64 → EReal) (wg wi : Fin 64 → Fin 64 → EReal)
    (h1 : ∀ k, Sim (r1 k) (r1' k)) (h2 : ∀ k, Sim (r2 k) (r2' k)) (j : Fin 64) :
    rowOut c ε f r1 r2 wg wi j = rowOut c ε f r1' r2' wg wi j := by
  have hact : ∀ j, Sim (rowAct c f r1 r2 wg wi j) (rowAct c f r1' r2' wg wi j) := fun j =>
    sim_leaky hc (sim_rowPre f r1 r1' r2 r2' wg wi h1 h2 j)
  by_cases hex : ∃ j₀, rowAct c f r1 r2 wg wi j₀ ≠ rowAct c f r1' r2' wg wi j₀
  · obtain ⟨j₀, hne⟩ := hex
    rcases hact j₀ with e | ⟨ha, hb⟩
    · exact absurd e hne
    · unfold rowOut
      rw [scaled_eq_zero _ ε ha j, scaled_eq_zero _ ε hb j]
  · have e : rowAct c f r1 r2 wg wi = rowAct c f r1' r2' wg wi :=
      funext fun j₀ => by_contra fun hne => hex ⟨j₀, hne⟩
    unfold rowOut
    rw [e]

end Cert.Spec
end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.Bridge.lean ====
/-
  The two programs compute the same array.

  At a node n and a column j both results are the dense finish of node n's feature row and two aggregated messages.
  The kernel's messages are  feat[n,k] · Σ_e w e  and  feat[n,k] · Σ_e feat[src e,k] · w e  (sums over the edges landing
  on n); the reference's have the factor feat[n,k] inside each term. The feature being a real number, the two
  bracketings are equal or both infinite, and rows related in that way have the same unit-length scaling.
-/
import proofs.«177534_j81398220194344_1_alg».proof.Proof.KValue
import proofs.«177534_j81398220194344_1_alg».proof.Proof.KSums
import proofs.«177534_j81398220194344_1_alg».proof.Proof.RefMsgs
import proofs.«177534_j81398220194344_1_alg».proof.Proof.RowAlgebra
import proofs.«177534_j81398220194344_1_alg».proof.Proof.LibRealValued

set_option maxRecDepth 16384
noncomputable section
open scoped BigOperators
namespace Cert.Proof.Bridge

open Idealize.ShloMosaic Idealize.ShloMosaic.ValueIdx
open Cert.KernelIdeal Cert.KernelIdeal.HostValue Cert.ReferenceIdeal.Read Cert.ReferenceIdeal.RefValue Cert.Spec

variable (x0 : FVec Ideal S100000x64 .f32) (x1 : FVec Ideal S100000x1 .f32) (x2 x3 : FVec Ideal S64x64 .f32)
  (x4 x5 : IVec S1000000 32)

/-- The gathers and the transposes are the same terms in both programs. -/
theorem srcRows_eq : srcRows x0 x4 = val_main_v34 (F := Ideal) x0 x4 := rfl
theorem srcDeg_eq : endDeg x1 x4 = val_main_v6 (F := Ideal) x1 x4 := rfl
theorem dstDeg_eq : endDeg x1 x5 = val_main_v14 (F := Ideal) x1 x5 := rfl
theorem wg_eq : transposed x2 = val_main_v44 (F := Ideal) x2 := rfl
theorem wi_eq : transposed x3 = val_main_v46 (F := Ideal) x3 := rfl

/-- The edge weights are the same column in both programs. -/
theorem weight_eq : edgeWeight (endDeg x1 x4) (endDeg x1 x5) = val_main_v18 (F := Ideal) x1 x4 x5 := by
  funext i
  rw [srcDeg_eq, dstDeg_eq, val_main_v18_apply, val_main_v17_apply, val_main_cst_apply, val_main_v16_apply, val_main_v7_apply,
    val_main_v15_apply]
  rfl

/-- The two results are one array when the features are real numbers. -/
theorem values_eq (hreal : Cert.Lib.RealValued.AllReal x0) :
    Cert.KernelIdeal.KValue.result x0 x1 x2 x3 x4 x5 = val_main_v64 (F := Ideal) x0 x1 x2 x3 x4 x5 := by
  funext i
  obtain ⟨n, j, rfl⟩ : ∃ (n : Fin 100000) (j : Fin 64), i = ix2 n j := ⟨i 0, i 1, eq_ix2 i⟩
  rw [out_apply]
  show finishAt x0 (sumCol x5 (edgeWeight (endDeg x1 x4) (endDeg x1 x5)))
    (sumRows x5 (scaleRows (srcRows x0 x4) (edgeWeight (endDeg x1 x4) (endDeg x1 x5)))) (transposed x2) (transposed x3) n j = _
  unfold finishAt
  rw [wg_eq, wi_eq, weight_eq, srcRows_eq]
  refine rowOut_congr slope floor slope_ne_zero _ _ _ _ _ _ _ (fun k => ?_) (fun k => ?_) j
  · obtain ⟨r, hr⟩ := hreal (ix2 n k)
    rw [sumCol_apply, r1_apply, hr]
    exact sim_msg1 r _ _
  · obtain ⟨r, hr⟩ := hreal (ix2 n k)
    rw [sumRows_apply, r2_apply, hr]
    exact sim_msg2 r _ _ _

end Cert.Proof.Bridge
end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«177534_j81398220194344_1_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  From the printed precondition to "every feature is a real number".

  The precondition is the conjunction of four tests, one per float input; the first says that every entry of the
  node-by-feature array has absolute value below +∞, which on the extended reals says exactly that it is a real.
-/
import proofs.«177534_j81398220194344_1_alg».proof.Pre_finite_inputs
import proofs.«177534_j81398220194344_1_alg».proof.Proof.LibFiniteTest
import Idealize.ShloMosaic.Lib.Affine
import Idealize.ShloMosaic.Lib.ValueIdx

noncomputable section
namespace Cert.Proof.Finite

open Idealize.ShloMosaic Cert.Pre_finite_inputs

instance : Subsingleton S_.Idx := ⟨fun a b => funext fun d => d.elim0⟩

theorem feat_real [Facts] (a0 : FVec Ideal S100000x64 .f32) (a1 : FVec Ideal S100000x1 .f32) (a2 a3 : FVec Ideal S64x64 .f32)
    (a4 a5 : IVec S1000000 32) (h : fn (F := Ideal) a0 a1 a2 a3 a4 a5 = fun _ => 1#1) :
    Cert.Lib.RealValued.AllReal a0 := by
  have h0 := congrFun h ValueIdx.ix0
  dsimp only [fn, fn_part1] at h0
  have h1 := (IntOp.andi_eq_one.mp h0).1
  have h2 := (IntOp.andi_eq_one.mp h1).1
  have h3 := (IntOp.andi_eq_one.mp h2).1
  exact Cert.Lib.FiniteTest.allReal_of_all a0 _ _ _ _ _ _ h3

end Cert.Proof.Finite
end
-- ==== Proof.lean ====
/-
  A graph-convolution layer with symmetric degree normalisation: every node n aggregates, over its incoming edges
  e, the messages  feat[n] · w e  and  (feat[n] ⊙ feat[src e]) · w e  with  w e = 1 / (√deg[src e] · √deg[n]),
  pushes the two sums and its own features through two 64 × 64 linear maps, applies a leaky rectifier and scales the
  row to unit length. The kernel program takes the factor feat[n] out of both sums (so it gathers only the source
  rows), computes the edge weights and the weighted source rows in one pallas_call, sums them into the nodes on the
  host, and does the dense finish in a second pallas_call; the reference keeps feat[n] inside the sums.

  On the extended reals the two bracketings of a sum agree unless the sum mixes the two infinities (possible here when a
  degree is 0, which makes an edge weight +∞); in that case both bracketings are infinite, every entry of the row that
  sees them through a non-zero weight is infinite in both programs, both rows have infinite length, and both results
  are the zero row. So the two results are equal for all finite features, whatever the degrees, weights and index
  words: `Cert.Proof.Bridge.values_eq` (the algebra is `Cert.Spec.rowOut_congr`).

  The three frames: the two kernel programs' are the generated launch over their four segments; the reference's is its
  generated run with the result dropped. The idealization rewrote nothing, so `preserves` is trivial.
-/
import proofs.«177534_j81398220194344_1_alg».proof.Defs
import proofs.«177534_j81398220194344_1_alg».proof.Proof.Gen.Kernel
import proofs.«177534_j81398220194344_1_alg».proof.Proof.Gen.Kernel.Skeleton
import proofs.«177534_j81398220194344_1_alg».proof.Proof.Gen.Kernel.Launch
import proofs.«177534_j81398220194344_1_alg».proof.Proof.Gen.Kernel.Points
import proofs.«177534_j81398220194344_1_alg».proof.Proof.Gen.Kernel.Frame
import proofs.«177534_j81398220194344_1_alg».proof.Proof.Gen.KernelIdeal
import proofs.«177534_j81398220194344_1_alg».proof.Proof.Gen.KernelIdeal.Skeleton
import proofs.«177534_j81398220194344_1_alg».proof.Proof.Gen.KernelIdeal.Launch
import proofs.«177534_j81398220194344_1_alg».proof.Proof.Gen.KernelIdeal.Points
import proofs.«177534_j81398220194344_1_alg».proof.Proof.Gen.KernelIdeal.Frame
import proofs.«177534_j81398220194344_1_alg».proof.Proof.Gen.ReferenceIdeal
import proofs.«177534_j81398220194344_1_alg».proof.Proof.Gen.Pre_finite_inputs
import proofs.«177534_j81398220194344_1_alg».proof.Proof.Gen.ReferenceIdeal.Run
import proofs.«177534_j81398220194344_1_alg».proof.Proof.Gen.ReferenceIdeal.Read
import proofs.«177534_j81398220194344_1_alg».proof.Proof.Bridge
import proofs.«177534_j81398220194344_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel's run names it as `KValue.result` of the arguments, the
    reference's run as its last stage of the arguments, the arguments agree, and the two functions are equal on real
    features. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2]
  exact (Cert.Proof.Bridge.values_eq _ _ _ _ _ _ (Cert.Proof.Finite.feat_real _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
